-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S256x40 1) : IVec S_ 1 :=
  let main_c_5 : IVec S_ 1 := constantI S_ 1 1#1
  let main_v17 : IVec S_ 1 := (fun x v => Host.reduce IntOp.andi x v reducesTo_S256x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x800000 32) (main_arg2 : FVec F S128x256 .f32) (main_arg3 : FVec F S256 .f32) (main_arg4 : FVec F S256x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x40 .f32 := Host.absf main_arg4
  let main_cst_4 : FVec F S_ .f32 := constant S_ .f32 0x7F800000#32
  let main_v15 : FVec F S256x40 .f32 := broadcastInDim S256x40 ![] bcast_S_S256x40 main_cst_4
  let main_v16 : IVec S256x40 1 := cmpf .olt main_v14 main_v15
  fn_part1 (F := F) main_arg5 main_v13 main_v16
-- ==== Kernel.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S1x800000 : Shape := ⟨2, ![1, 800000]⟩
abbrev S800000 : Shape := ⟨1, ![800000]⟩
abbrev S100000 : Shape := ⟨1, ![100000]⟩
abbrev S900000 : Shape := ⟨1, ![900000]⟩
abbrev S_ : Shape := ⟨0, ![]⟩
abbrev S900000x1 : Shape := ⟨2, ![900000, 1]⟩
abbrev S100000x256 : Shape := ⟨2, ![100000, 256]⟩
abbrev S5000x128 : Shape := ⟨2, ![5000, 128]⟩
abbrev S5000x256 : Shape := ⟨2, ![5000, 256]⟩
abbrev S900000x256 : Shape := ⟨2, ![900000, 256]⟩
abbrev S1x256 : Shape := ⟨2, ![1, 256]⟩
abbrev S100000x40 : Shape := ⟨2, ![100000, 40]⟩
abbrev S5000x40 : Shape := ⟨2, ![5000, 40]⟩
abbrev S900000x40 : Shape := ⟨2, ![900000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S100000, .i32⟩
  | .hbm, ⟨11, _⟩ => ⟨S900000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S900000, .i32⟩
  | .hbm, ⟨29, _⟩ => ⟨S900000, .i1⟩
  | .hbm, ⟨30, _⟩ => ⟨S_, .i32⟩
  | .hbm, ⟨31, _⟩ => ⟨S900000, .i32⟩
  | .hbm, ⟨32, _⟩ => ⟨S900000, .i32⟩
  | .hbm, ⟨33, _⟩ => ⟨S900000, .i32⟩
  | .hbm, ⟨34, _⟩ => ⟨S900000x1, .i32⟩
  | .hbm, ⟨35, _⟩ => ⟨S900000, .f32⟩
  | .hbm, ⟨36, _⟩ => ⟨S_, .i32⟩
  | .hbm, ⟨37, _⟩ => ⟨S900000, .i32⟩
  | .hbm, ⟨38, _⟩ => ⟨S900000, .i1⟩
  | .hbm, ⟨39, _⟩ => ⟨S_, .i32⟩
  | .hbm, ⟨40, _⟩ => ⟨S900000, .i32⟩
  | .hbm, ⟨41, _⟩ => ⟨S900000, .i32⟩
  | .hbm, ⟨42, _⟩ => ⟨S900000, .i32⟩
  | .hbm, ⟨43, _⟩ => ⟨S900000x1, .i32⟩
  | .hbm, ⟨44, _⟩ => ⟨S900000, .f32⟩
  | .hbm, ⟨45, _⟩ => ⟨S900000, .f32⟩
  | .hbm, ⟨46, _⟩ => ⟨S100000x256, .f32⟩
  | .hbm, ⟨47, _⟩ => ⟨S_, .i32⟩
  | .hbm, ⟨48, _⟩ => ⟨S900000, .i32⟩
  | .hbm, ⟨49, _⟩ => ⟨S900000, .i1⟩
  | .hbm, ⟨50, _⟩ => ⟨S_, .i32⟩
  | .hbm, ⟨51, _⟩ => ⟨S900000, .i32⟩
  | .hbm, ⟨52, _⟩ => ⟨S900000, .i32⟩
  | .hbm, ⟨53, _⟩ => ⟨S900000, .i32⟩
  | .hbm, ⟨54, _⟩ => ⟨S900000x1, .i32⟩
  | .hbm, ⟨55, _⟩ => ⟨S900000x256, .f32⟩
  | .hbm, ⟨56, _⟩ => ⟨S900000x1, .f32⟩
  | .hbm, ⟨57, _⟩ => ⟨S900000x256, .f32⟩
  | .hbm, ⟨58, _⟩ => ⟨S900000x256, .f32⟩
  | .hbm, ⟨59, _⟩ => ⟨S_, .f32⟩
  | .hbm, ⟨60, _⟩ => ⟨S100000x256, .f32⟩
  | .hbm, ⟨61, _⟩ => ⟨S900000x1, .i32⟩
  | .hbm, ⟨62, _⟩ => ⟨S100000x256, .f32⟩
  | .hbm, ⟨63, _⟩ => ⟨S1x256, .f32⟩
  | .hbm, ⟨64, _⟩ => ⟨S100000x256, .f32⟩
  | .hbm, ⟨65, _⟩ => ⟨S100000x40, .f32⟩
  | .hbm, ⟨66, _⟩ => ⟨S_, .i32⟩
  | .hbm, ⟨67, _⟩ => ⟨S900000, .i32⟩
  | .hbm, ⟨68, _⟩ => ⟨S900000, .i1⟩
  | .hbm, ⟨69, _⟩ => ⟨S_, .i32⟩
  | .hbm, ⟨70, _⟩ => ⟨S900000, .i32⟩
  | .hbm, ⟨71, _⟩ => ⟨S900000, .i32⟩
  | .hbm, ⟨72, _⟩ => ⟨S900000, .i32⟩
  | .hbm, ⟨73, _⟩ => ⟨S900000x1, .i32⟩
  | .hbm, ⟨74, _⟩ => ⟨S900000x40, .f32⟩
  | .hbm, ⟨75, _⟩ => ⟨S900000x1, .f32⟩
  | .hbm, ⟨76, _⟩ => ⟨S900000x40, .f32⟩
  | .hbm, ⟨77, _⟩ => ⟨S900000x40, .f32⟩
  | .hbm, ⟨78, _⟩ => ⟨S_, .f32⟩
  | .hbm, ⟨79, _⟩ => ⟨S100000x40, .f32⟩
  | .hbm, ⟨80, _⟩ => ⟨S900000x1, .i32⟩
  | .hbm, ⟨81, _⟩ => ⟨S100000x40, .f32⟩
  | .hbm, ⟨82, _⟩ => ⟨S1x40, .f32⟩
  | .hbm, ⟨83, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x40_S256x40_0_0 : ∀ a, (![0, 0] : Fin 2 → Nat) a + S256x40.size a ≤ S256x40.size a
  h_S256x40 : 0 < S256x40.numel
  inb_S5000x40_S5000x40_0_0 : ∀ a, (![0, 0] : Fin 2 → Nat) a + S5000x40.size a ≤ S5000x40.size a
  h_S5000x40 : 0 < S5000x40.numel
  bcast_S900000x1_S900000x40_0_1 : S900000x1.BroadcastsInDim S900000x40 (![0, 1] : Fin 2 → Fin S900000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S5000x128_S128x256_S5000x256_1_0_0_1_n_n_wf : DotDims.WF S5000x128 S128x256 S5000x256 [1] [0] [0] [1] [] []
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S5000x256_S256x40_S5000x40_1_0_0_1_n_n_wf : DotDims.WF S5000x256 S256x40 S5000x40 [1] [0] [0] [1] [] []
  gather_S100000x40_S900000x1_S900000x40_1_0_n_n_0_1_140_wf : GatherDims.WF S100000x40 S900000x1 S900000x40 [1] [0] [] [0] [] 1 ![1, 40]
  scatter_S100000x40_S900000x1_S900000x40_1_0_0_1_wf : ScatterDims.WF S100000x40 S900000x1 S900000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S100000x256.size a
  hwx1_2 : ∀ i : grid1.Coords, EltTy.bits .f32 = 32 ∨ (Rect.block (s := S100000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x40.size a ≤ S256x40.size a
  hwx2_1 : ∀ i : grid2.Coords, EltTy.bits .f32 = 32 ∨ (Rect.block (s := S256x40) S256x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf
def gather_S100000x40_S900000x1_S900000x40_1_0_n_n_0_1_140 : GatherDims S100000x40 S900000x1 S900000x40 where
  offsetDims := [1]
  collapsedSliceDims := [0]
  operandBatchingDims := []
  startIndicesBatchingDims := []
  startIndexMap := [0]
  indexVectorDim := 1
  sliceSizes := ![1, 40]
  wf := gather_S100000x40_S900000x1_S900000x40_1_0_n_n_0_1_140_wf
def scatter_S100000x40_S900000x1_S900000x40_1_0_0_1 : ScatterDims S100000x40 S900000x1 S900000x40 where
  updateWindowDims := [1]
  insertedWindowDims := [0]
  scatterDimsToOperandDims := [0]
  indexVectorDim := 1
  wf := scatter_S100000x40_S900000x1_S900000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S1x800000 : Shape := ⟨2, ![1, 800000]⟩
abbrev S800000 : Shape := ⟨1, ![800000]⟩
abbrev S100000x256 : Shape := ⟨2, ![100000, 256]⟩
abbrev S100000 : Shape := ⟨1, ![100000]⟩
abbrev S900000 : Shape := ⟨1, ![900000]⟩
abbrev S_ : Shape := ⟨0, ![]⟩
abbrev S900000x1 : Shape := ⟨2, ![900000, 1]⟩
abbrev S900000x256 : Shape := ⟨2, ![900000, 256]⟩
abbrev S1x256 : Shape := ⟨2, ![1, 256]⟩
abbrev S100000x40 : Shape := ⟨2, ![100000, 40]⟩
abbrev S900000x40 : Shape := ⟨2, ![900000, 40]⟩
abbrev S1x40 : Shape := ⟨2, ![1, 40]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x800000, .i32⟩
  | 2 => ⟨S128x256, .f32⟩
  | 3 => ⟨S256, .f32⟩
  | 4 => ⟨S256x40, .f32⟩
  | 5 => ⟨S40, .f32⟩
  | 6 => ⟨S1x800000, .i32⟩
  | 7 => ⟨S800000, .i32⟩
  | 8 => ⟨S1x800000, .i32⟩
  | 9 => ⟨S800000, .i32⟩
  | 10 => ⟨S100000x256, .f32⟩
  | 11 => ⟨S100000, .i32⟩
  | 12 => ⟨S900000, .i32⟩
  | 13 => ⟨S900000, .i32⟩
  | 14 => ⟨S_, .f32⟩
  | 15 => ⟨S900000, .f32⟩
  | 16 => ⟨S_, .f32⟩
  | 17 => ⟨S100000, .f32⟩
  | 18 => ⟨S900000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S900000, .i32⟩
  | 30 => ⟨S900000, .i1⟩
  | 31 => ⟨S_, .i32⟩
  | 32 => ⟨S900000, .i32⟩
  | 33 => ⟨S900000, .i32⟩
  | 34 => ⟨S900000, .i32⟩
  | 35 => ⟨S900000x1, .i32⟩
  | 36 => ⟨S900000, .f32⟩
  | 37 => ⟨S_, .i32⟩
  | 38 => ⟨S900000, .i32⟩
  | 39 => ⟨S900000, .i1⟩
  | 40 => ⟨S_, .i32⟩
  | 41 => ⟨S900000, .i32⟩
  | 42 => ⟨S900000, .i32⟩
  | 43 => ⟨S900000, .i32⟩
  | 44 => ⟨S900000x1, .i32⟩
  | 45 => ⟨S900000, .f32⟩
  | 46 => ⟨S900000, .f32⟩
  | 47 => ⟨S_, .i32⟩
  | 48 => ⟨S900000, .i32⟩
  | 49 => ⟨S900000, .i1⟩
  | 50 => ⟨S_, .i32⟩
  | 51 => ⟨S900000, .i32⟩
  | 52 => ⟨S900000, .i32⟩
  | 53 => ⟨S900000, .i32⟩
  | 54 => ⟨S900000x1, .i32⟩
  | 55 => ⟨S900000x256, .f32⟩
  | 56 => ⟨S900000x1, .f32⟩
  | 57 => ⟨S900000x256, .f32⟩
  | 58 => ⟨S900000x256, .f32⟩
  | 59 => ⟨S_, .f32⟩
  | 60 => ⟨S100000x256, .f32⟩
  | 61 => ⟨S900000x1, .i32⟩
  | 62 => ⟨S100000x256, .f32⟩
  | 63 => ⟨S1x256, .f32⟩
  | 64 => ⟨S100000x256, .f32⟩
  | 65 => ⟨S100000x256, .f32⟩
  | 66 => ⟨S_, .f32⟩
  | 67 => ⟨S100000x256, .f32⟩
  | 68 => ⟨S100000x256, .f32⟩
  | 69 => ⟨S100000x40, .f32⟩
  | 70 => ⟨S100000, .i32⟩
  | 71 => ⟨S900000, .i32⟩
  | 72 => ⟨S900000, .i32⟩
  | 73 => ⟨S_, .f32⟩
  | 74 => ⟨S900000, .f32⟩
  | 75 => ⟨S_, .f32⟩
  | 76 => ⟨S100000, .f32⟩
  | 77 => ⟨S900000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S900000, .i32⟩
  | 89 => ⟨S900000, .i1⟩
  | 90 => ⟨S_, .i32⟩
  | 91 => ⟨S900000, .i32⟩
  | 92 => ⟨S900000, .i32⟩
  | 93 => ⟨S900000, .i32⟩
  | 94 => ⟨S900000x1, .i32⟩
  | 95 => ⟨S900000, .f32⟩
  | 96 => ⟨S_, .i32⟩
  | 97 => ⟨S900000, .i32⟩
  | 98 => ⟨S900000, .i1⟩
  | 99 => ⟨S_, .i32⟩
  | 100 => ⟨S900000, .i32⟩
  | 101 => ⟨S900000, .i32⟩
  | 102 => ⟨S900000, .i32⟩
  | 103 => ⟨S900000x1, .i32⟩
  | 104 => ⟨S900000, .f32⟩
  | 105 => ⟨S900000, .f32⟩
  | 106 => ⟨S_, .i32⟩
  | 107 => ⟨S900000, .i32⟩
  | 108 => ⟨S900000, .i1⟩
  | 109 => ⟨S_, .i32⟩
  | 110 => ⟨S900000, .i32⟩
  | 111 => ⟨S900000, .i32⟩
  | 112 => ⟨S900000, .i32⟩
  | 113 => ⟨S900000x1, .i32⟩
  | 114 => ⟨S900000x40, .f32⟩
  | 115 => ⟨S900000x1, .f32⟩
  | 116 => ⟨S900000x40, .f32⟩
  | 117 => ⟨S900000x40, .f32⟩
  | 118 => ⟨S_, .f32⟩
  | 119 => ⟨S100000x40, .f32⟩
  | 120 => ⟨S900000x1, .i32⟩
  | 121 => ⟨S100000x40, .f32⟩
  | 122 => ⟨S1x40, .f32⟩
  | 123 => ⟨S100000x40, .f32⟩
  | 124 => ⟨S100000x40, .f32⟩
  | 125 => ⟨S_, .f32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000x1, .f32⟩
  | 3 => ⟨S100000x40, .f32⟩
  | 4 => ⟨S100000x40, .f32⟩
  | 5 => ⟨S100000x40, .f32⟩
  | 6 => ⟨S_, .f32⟩
  | 7 => ⟨S100000, .f32⟩
  | 8 => ⟨S100000x1, .f32⟩
  | 9 => ⟨S100000x1, .f32⟩
  | 10 => ⟨S100000x40, .f32⟩
  | 11 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S900000x1_S900000x40_0_1 : S900000x1.BroadcastsInDim S900000x40 (![0, 1] : Fin 2 → Fin S900000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x256_S100000x256_1_0_0_1_n_n_wf : DotDims.WF S100000x128 S128x256 S100000x256 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S100000x256_S256x40_S100000x40_1_0_0_1_n_n_wf : DotDims.WF S100000x256 S256x40 S100000x40 [1] [0] [0] [1] [] []
  gather_S100000x40_S900000x1_S900000x40_1_0_n_n_0_1_140_wf : GatherDims.WF S100000x40 S900000x1 S900000x40 [1] [0] [] [0] [] 1 ![1, 40]
  scatter_S100000x40_S900000x1_S900000x40_1_0_0_1_wf : ScatterDims.WF S100000x40 S900000x1 S900000x40 [1] [0] [0] 1

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf
def gather_S100000x40_S900000x1_S900000x40_1_0_n_n_0_1_140 : GatherDims S100000x40 S900000x1 S900000x40 where
  offsetDims := [1]
  collapsedSliceDims := [0]
  operandBatchingDims := []
  startIndicesBatchingDims := []
  startIndexMap := [0]
  indexVectorDim := 1
  sliceSizes := ![1, 40]
  wf := gather_S100000x40_S900000x1_S900000x40_1_0_n_n_0_1_140_wf
def scatter_S100000x40_S900000x1_S900000x40_1_0_0_1 : ScatterDims S100000x40 S900000x1 S900000x40 where
  updateWindowDims := [1]
  insertedWindowDims := [0]
  scatterDimsToOperandDims := [0]
  indexVectorDim := 1
  wf := scatter_S100000x40_S900000x1_S900000x40_1_0_0_1_wf

class Facts : Prop extends Facts₀ where

variable [Facts]
-- ==== Proof.ValueRun.lean ====
/-
  The kernel program's run with its result array named. The program is four pipelined regions among stretches of host
  operations; the buffers' contents at each boundary are a fold from the launch memory (the generated `Gen.W0` … `Gen.W9`),
  and every weakly fair execution ends with each unscoped buffer at the last boundary's contents. Read at the result
  buffer this says: the result array ends at `Gen.W9` of the launch memory, the arguments as launched.
-/
import proofs.«165430_j65747359367630_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.ValueRun

end
-- ==== Proof.Spec.lean ====
/-
  The two row-wise layers of a graph-convolution network, as functions of whole arrays of extended reals.

  `biasRelu A b` adds the row vector b to every row of the r×n array A and takes the maximum with zero.
  `biasLogSoftmax A b` adds b to every row and then, row by row, subtracts the row's maximum and the logarithm of
  the sum of the exponentials of the shifted row: a log-softmax along each row. Entry (p, q) of either depends on
  row p of A only, so a block of rows of A is sent to the same block of rows of the result. Nothing here mentions a
  program.
-/
import Idealize.ShloMosaic.PureOps.Ideal
import Idealize.ShloMosaic.Lib.ValueIdx

open scoped BigOperators

noncomputable section

namespace Cert.GraphConv

open Idealize.ShloMosaic Idealize.ShloMosaic.ValueIdx

variable {r r' n : Nat}

/-- Row p of A with the row vector b added, as a function of the column. -/
def biasedRow (A : (⟨2, ![r, n]⟩ : Shape).Idx → EReal) (b : (⟨2, ![1, n]⟩ : Shape).Idx → EReal) (p : Fin r) :
    Fin n → EReal := fun k => A (ix2 p k) + b (ix2 0 k)

/-- The maximum of a biased row (−∞ for an empty row). -/
def rowMax (A : (⟨2, ![r, n]⟩ : Shape).Idx → EReal) (b : (⟨2, ![1, n]⟩ : Shape).Idx → EReal) (p : Fin r) : EReal :=
  (Finset.univ : Finset (Fin n)).fold max (⊥ : EReal) (biasedRow A b p)

/-- b added to every row of A, then the maximum with zero. -/
def biasRelu (A : (⟨2, ![r, n]⟩ : Shape).Idx → EReal) (b : (⟨2, ![1, n]⟩ : Shape).Idx → EReal) :
    (⟨2, ![r, n]⟩ : Shape).Idx → EReal :=
  fun i => max (biasedRow A b (i 0) (i 1)) (Ideal.ofBits .f32 0x00000000#32)

theorem biasRelu_apply (A : (⟨2, ![r, n]⟩ : Shape).Idx → EReal) (b : (⟨2, ![1, n]⟩ : Shape).Idx → EReal)
    (p : Fin r) (q : Fin n) :
    biasRelu A b (ix2 p q) = max (A (ix2 p q) + b (ix2 0 q)) (Ideal.ofBits .f32 0x00000000#32) := rfl

/-- b added to every row of A, then the log-softmax of each row: the shifted row minus the logarithm of the sum of
    its exponentials. -/
def biasLogSoftmax (A : (⟨2, ![r, n]⟩ : Shape).Idx → EReal) (b : (⟨2, ![1, n]⟩ : Shape).Idx → EReal) :
    (⟨2, ![r, n]⟩ : Shape).Idx → EReal :=
  fun i => (biasedRow A b (i 0) (i 1) - rowMax A b (i 0))
    - Ideal.log (∑ k : Fin n, Ideal.exp (biasedRow A b (i 0) k - rowMax A b (i 0)))

theorem biasLogSoftmax_apply (A : (⟨2, ![r, n]⟩ : Shape).Idx → EReal) (b : (⟨2, ![1, n]⟩ : Shape).Idx → EReal)
    (p : Fin r) (q : Fin n) :
    biasLogSoftmax A b (ix2 p q)
      = (biasedRow A b p q - rowMax A b p) - Ideal.log (∑ k : Fin n, Ideal.exp (biasedRow A b p k - rowMax A b p)) := rfl

/-- If row y of A' is row p of A, their biased rows are the same function. -/
theorem biasedRow_congr (A : (⟨2, ![r, n]⟩ : Shape).Idx → EReal) (A' : (⟨2, ![r', n]⟩ : Shape).Idx → EReal)
    (b : (⟨2, ![1, n]⟩ : Shape).Idx → EReal) (y : Fin r') (p : Fin r)
    (hA : ∀ k : Fin n, A' (ix2 y k) = A (ix2 p k)) : biasedRow A' b y = biasedRow A b p :=
  funext fun k => by unfold biasedRow; rw [hA k]

/-- Entry (y, q) of `biasRelu A' b` is entry (p, q) of `biasRelu A b` when row y of A' is row p of A. -/
theorem biasRelu_rows (A : (⟨2, ![r, n]⟩ : Shape).Idx → EReal) (A' : (⟨2, ![r', n]⟩ : Shape).Idx → EReal)
    (b : (⟨2, ![1, n]⟩ : Shape).Idx → EReal) (y : Fin r') (p : Fin r) (q : Fin n)
    (hA : ∀ k : Fin n, A' (ix2 y k) = A (ix2 p k)) : biasRelu A' b (ix2 y q) = biasRelu A b (ix2 p q) := by
  rw [biasRelu_apply, biasRelu_apply, hA q]

/-- Entry (y, q) of `biasLogSoftmax A' b` is entry (p, q) of `biasLogSoftmax A b` when row y of A' is row p of A. -/
theorem biasLogSoftmax_rows (A : (⟨2, ![r, n]⟩ : Shape).Idx → EReal) (A' : (⟨2, ![r', n]⟩ : Shape).Idx → EReal)
    (b : (⟨2, ![1, n]⟩ : Shape).Idx → EReal) (y : Fin r') (p : Fin r) (q : Fin n)
    (hA : ∀ k : Fin n, A' (ix2 y k) = A (ix2 p k)) :
    biasLogSoftmax A' b (ix2 y q) = biasLogSoftmax A b (ix2 p q) := by
  rw [biasLogSoftmax_apply, biasLogSoftmax_apply]
  unfold rowMax
  rw [biasedRow_congr A A' b y p hA]

end Cert.GraphConv

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«165430_j65747359367630_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.Bodies.lean ====
/-
  What each kernel body computes from the blocks it loads, on the extended reals, as a function of whole blocks:
  the two matrix-product bodies are the dense product of their blocks (a change of float format is the identity
  there, and a product accumulated into zeros is the plain sum over the contracted coordinate); the bias-and-relu body
  is `biasRelu` of its block and of the bias row; the bias-and-log-softmax body is `biasLogSoftmax` of its block and
  of the bias row (its row maximum is the fold of max from −∞ and its row sum the plain sum over the row).
-/
import proofs.«165430_j65747359367630_1_alg».proof.Proof.Gen.KernelIdeal.Skeleton
import proofs.«165430_j65747359367630_1_alg».proof.Proof.Spec
import proofs.«165430_j65747359367630_1_alg».proof.Proof.LibMatProd
import proofs.«165430_j65747359367630_1_alg».proof.Proof.LibRowReductions
import Idealize.ShloMosaic.Lib.Pipeline.Value
import Idealize.ShloMosaic.Lib.ValueLayout

open scoped BigOperators

noncomputable section

namespace Cert.KernelIdeal.Bodies

open Cert.KernelIdeal Cert.KernelIdeal.Gen Idealize.ShloMosaic Idealize.ShloMosaic.ValueIdx
open Cert.GraphConv Cert.Lib.MatProd Cert.Lib.RowReductions Cert.Lib.BlockReads

/-- The first product body: the 5000×128 block times the 128×256 weights. -/
theorem product1_body (x0 : Vec Ideal S5000x128 .f32) (x1 : Vec Ideal S128x256 .f32) :
    k0_pay1 (F := Ideal) x0 x1 = matProd x0 x1 := by
  unfold k0_pay1
  exact matmul_zero_eq_matProd dot_S5000x128_S128x256_S5000x256_1_0_0_1_n_n rfl rfl rfl rfl rfl rfl none _ _

/-- The second product body: the 5000×256 block times the 256×40 weights. -/
theorem product2_body (x0 : Vec Ideal S5000x256 .f32) (x1 : Vec Ideal S256x40 .f32) :
    k2_pay1 (F := Ideal) x0 x1 = matProd x0 x1 := by
  unfold k2_pay1
  simp only [shapeCast_self]
  exact matmul_zero_eq_matProd dot_S5000x256_S256x40_S5000x40_1_0_0_1_n_n rfl rfl rfl rfl rfl rfl none _ _

/-- The bias-and-relu body. -/
theorem biasRelu_body (x0 : Vec Ideal S5000x256 .f32) (x1 : Vec Ideal S1x256 .f32) :
    k1_pay1 (F := Ideal) x0 x1 = biasRelu x0 x1 := by
  funext j
  obtain ⟨p, q, rfl⟩ : ∃ (p : Fin 5000) (q : Fin 256), j = ix2 p q := ⟨j 0, j 1, eq_ix2 j⟩
  rw [biasRelu_apply]
  unfold k1_pay1
  simp only [shapeCast_self]
  show max (x0 (ix2 p q) + broadcastTo S5000x256 x1 broadcasts_S1x256_S5000x256 (ix2 p q)) _ = _
  rw [broadcast_row_apply]
  rfl

theorem exp_apply {s : Shape} {φ : FTy} (v : FVec Ideal s φ) (i : s.Idx) : exp v i = Ideal.exp (v i) := rfl
theorem log_apply {s : Shape} {φ : FTy} (v : FVec Ideal s φ) (i : s.Idx) : log v i = Ideal.log (v i) := rfl

/-- The bias-and-log-softmax body. -/
theorem biasLogSoftmax_body (x0 : Vec Ideal S5000x40 .f32) (x1 : Vec Ideal S1x40 .f32) :
    k3_pay1 (F := Ideal) x0 x1 = biasLogSoftmax x0 x1 := by
  funext j
  obtain ⟨p, q, rfl⟩ : ∃ (p : Fin 5000) (q : Fin 40), j = ix2 p q := ⟨j 0, j 1, eq_ix2 j⟩
  rw [biasLogSoftmax_apply]
  unfold k3_pay1
  simp only [shapeCast_self]
  have hz : ∀ (a : Fin 5000) (k : Fin 40),
      (addf (F := Ideal) (φ := .f32) x0 (broadcastTo S5000x40 x1 broadcasts_S1x40_S5000x40)) (ix2 a k) = biasedRow x0 x1 a k :=
    fun a k => by rw [addf_apply, broadcast_row_apply]; rfl
  generalize addf (F := Ideal) (φ := .f32) x0 (broadcastTo S5000x40 x1 broadcasts_S1x40_S5000x40) = z at hz ⊢
  have hmx : ∀ a : Fin 5000,
      multiReduction (F := Ideal) (φ := .f32) .maximumf [1] S5000 z 0xFF800000#32 reduces_S5000x40_S5000 (.inl rfl) rfl (ix1 a)
        = rowMax x0 x1 a := fun a => by
    refine (rowmax_apply z 0xFF800000#32 reduces_S5000x40_S5000 (.inl rfl) rfl a).trans ?_
    unfold rowMax
    rw [Ideal.ofBits_def, ofBits_neg_inf_f32]
    exact congrArg (fun f => Finset.fold max (⊥ : EReal) f (Finset.univ : Finset (Fin 40))) (funext fun k => hz a k)
  generalize multiReduction (F := Ideal) (φ := .f32) .maximumf [1] S5000 z 0xFF800000#32 reduces_S5000x40_S5000 (.inl rfl) rfl = mx at hmx ⊢
  have hsh : ∀ (a : Fin 5000) (k : Fin 40),
      (subf z (broadcastTo S5000x40 (shapeCast S5000x1 mx shapeCasts_S5000_S5000x1) broadcasts_S5000x1_S5000x40)) (ix2 a k)
        = biasedRow x0 x1 a k - rowMax x0 x1 a := fun a k => by
    rw [subf_apply, broadcast_col_apply, shapeCast_col_apply, hz, hmx]
  generalize subf z (broadcastTo S5000x40 (shapeCast S5000x1 mx shapeCasts_S5000_S5000x1) broadcasts_S5000x1_S5000x40) = sh at hsh ⊢
  rw [subf_apply, broadcast_col_apply, log_apply, shapeCast_col_apply, hsh]
  exact congrArg (fun s => _ - Ideal.log s)
    ((rowsum_apply (exp sh) 0x00000000#32 reduces_S5000x40_S5000 (.inl rfl) rfl p).trans
      (Finset.sum_congr rfl fun k _ => by rw [exp_apply, hsh]))

end Cert.KernelIdeal.Bodies

end
-- ==== Proof.Blocks.lean ====
/-
  Each of the kernel program's four pipelined regions, read as a function of whole arrays. A region runs its body at
  twenty grid points; point t fetches rows 5000·t … 5000·t + 4999 of the first operand and the whole second operand,
  and writes its result back to the same rows of the result array. An entry of each body's result depends on one row
  of its row block only (a dense product's entry on one row of the left operand; a bias-and-relu or a row-wise
  log-softmax entry on its own row), so what point t writes back is those rows of ONE function of the whole operand
  arrays, and the twenty blocks tile the result array: after the region the result array holds that function of the
  operand arrays as the region found them — the dense product, `biasRelu`, the dense product, `biasLogSoftmax`.
-/
import proofs.«165430_j65747359367630_1_alg».proof.Proof.Gen.KernelIdeal.Frame
import proofs.«165430_j65747359367630_1_alg».proof.Proof.Bodies
import Idealize.ShloMosaic.Lib.Pipeline.Value

set_option maxRecDepth 16384

open scoped BigOperators

noncomputable section

namespace Cert.KernelIdeal.Blocks

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat)
open Cert.GraphConv Cert.Lib.MatProd

variable (V : (c : Dev nD) → (b : Ref sig .tc) → Buf (Elt Ideal) ((c : Thread nD τ).loc b))

theorem hz : (![0, 0] : Fin 2 → Nat) = fun _ => 0 := funext fun a => by fin_cases a <;> rfl

/-! ## Region 0: the first dense product -/

/-- The index maps of region 0's three windows, decided over its twenty grid points: the row-block operand and the
    result move with the point, the other operand stays whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What region 0 leaves in its result array, as a function of its two operand arrays. -/
abbrev G0 (a0 : S100000x128.Idx → EReal) (a1 : S128x256.Idx → EReal) : S100000x256.Idx → EReal := matProd a0 a1

/-- What point t writes back is rows 5000·t … 5000·t + 4999 of `G0` of the operand arrays as the region finds them:
    an entry of the body's result depends on one row of its row block, and that row is a row of the whole operand. -/
theorem flushed0 (c : Dev nD) (t : Fin cfg0.N) :
    (dat0 (F := Ideal) V c).flushed 2 t
      = ((cfg0.win 2).blk t).view.read (Elt Ideal) (G0 (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x256) hz]
  rw [product1_body]
  obtain ⟨e00, e01, e10, e11, e20, e21⟩ := idx_facts0 t
  funext j
  have ht : t.val < 20 := lt_of_lt_of_eq t.isLt N_0
  show matProd (iblk0 V c 0 t) (iblk0 V c 1 t) j = G0 (V c main_arg0) (V c main_arg2) (((cfg0.win 2).blk t).view.emb j)
  obtain ⟨y, q, rfl⟩ : ∃ (y : Fin 5000) (q : Fin 256), j = ix2 y q := ⟨j 0, j 1, eq_ix2 j⟩
  have hemb : ((cfg0.win 2).blk t).view.emb (ix2 y q)
      = ix2 (⟨t.val * 5000 + y.val, by omega⟩ : Fin 100000) q := by
    funext a; apply Fin.ext
    match a with
    | ⟨0, _⟩ => show win0_2.index t (0 : Fin 2) * 5000 + 1 * y.val = t.val * 5000 + y.val; rw [e20]; omega
    | ⟨1, _⟩ => show win0_2.index t (1 : Fin 2) * 256 + 1 * q.val = q.val; rw [e21]; omega
  rw [hemb]
  refine matProd_block (V c main_arg0) (iblk0 V c 0 t) (V c main_arg2) (iblk0 V c 1 t) y q _ q (fun k => ?_) (fun k => ?_)
  · show V c main_arg0 (((cfg0.win 0).blk t).view.emb (ix2 y k)) = _
    refine congrArg (V c main_arg0) ?_
    funext a; apply Fin.ext
    match a with
    | ⟨0, _⟩ => show win0_0.index t (0 : Fin 2) * 5000 + 1 * y.val = t.val * 5000 + y.val; rw [e00]; omega
    | ⟨1, _⟩ => show win0_0.index t (1 : Fin 2) * 128 + 1 * k.val = k.val; rw [e01]; omega
  · show V c main_arg2 (((cfg0.win 1).blk t).view.emb (ix2 k q)) = _
    refine congrArg (V c main_arg2) ?_
    funext a; apply Fin.ext
    match a with
    | ⟨0, _⟩ => show win0_1.index t (0 : Fin 2) * 128 + 1 * k.val = k.val; rw [e10]; omega
    | ⟨1, _⟩ => show win0_1.index t (1 : Fin 2) * 256 + 1 * q.val = q.val; rw [e11]; omega

/-- An index of the result array is in point t's block iff each coordinate is in the block's range on its axis. -/
theorem mem_blk0 (t : Fin cfg0.N) (i : S100000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v30).slice (win0_2.rect t)).set ↔ _
  rw [View.set_slice_whole, Rect.mem_set_unit]
  exact Iff.rfl

/-- Row r of the result array is in the block of point r / 5000, which writes back: the blocks tile the array. -/
theorem cover0 (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hlt : (i 0).val / 5000 < cfg0.N := lt_of_lt_of_eq (by omega : (i 0).val / 5000 < 20) N_0.symm
  obtain ⟨e00, e01, e10, e11, e20, e21⟩ := idx_facts0 ⟨(i 0).val / 5000, hlt⟩
  refine ⟨⟨(i 0).val / 5000, hlt⟩, flush0_2 _, ?_⟩
  rw [mem_blk0]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hlt⟩ (1 : Fin 2) * 256 ≤ (i 1).val
      ∧ (i 1).val < win0_2.index ⟨(i 0).val / 5000, hlt⟩ (1 : Fin 2) * 256 + 256
    rw [e21]; omega

/-- So region 0's result array ends holding `G0` of its operand arrays. -/
theorem arr0 (c : Dev nD) : (dat0 (F := Ideal) V c).arrAt 2 cfg0.N = G0 (V c main_arg0) (V c main_arg2) :=
  (dat0 (F := Ideal) V c).arrAt_eq_of_cover 2 _ (fun t _ => flushed0 V c t) (cover0)

/-! ## Region 1: the bias and relu -/

/-- The index maps of region 1's three windows, decided over its twenty grid points: the row-block operand and the
    result move with the point, the other operand stays whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What region 1 leaves in its result array, as a function of its two operand arrays. -/
abbrev G1 (a0 : S100000x256.Idx → EReal) (a1 : S1x256.Idx → EReal) : S100000x256.Idx → EReal := biasRelu a0 a1

/-- What point t writes back is rows 5000·t … 5000·t + 4999 of `G1` of the operand arrays as the region finds them:
    an entry of the body's result depends on one row of its row block, and that row is a row of the whole operand. -/
theorem flushed1 (c : Dev nD) (t : Fin cfg1.N) :
    (dat1 (F := Ideal) V c).flushed 2 t
      = ((cfg1.win 2).blk t).view.read (Elt Ideal) (G1 (V c main_v43) (V c main_v44)) := by
  show (cfg1.win 2).cut (grid1.coords t) ((dat1 (F := Ideal) V c).after 2 t) = _
  rw [after1_2]
  unfold out1_2
  rw [View.canon_unit_zero hz]
  simp only [View.ld_unit_zero (S := S5000x256) hz, View.ld_unit_zero (S := S1x256) hz]
  rw [biasRelu_body]
  obtain ⟨e00, e01, e10, e11, e20, e21⟩ := idx_facts1 t
  funext j
  have ht : t.val < 20 := lt_of_lt_of_eq t.isLt N_1
  show biasRelu (iblk1 V c 0 t) (iblk1 V c 1 t) j = G1 (V c main_v43) (V c main_v44) (((cfg1.win 2).blk t).view.emb j)
  obtain ⟨y, q, rfl⟩ : ∃ (y : Fin 5000) (q : Fin 256), j = ix2 y q := ⟨j 0, j 1, eq_ix2 j⟩
  have hemb : ((cfg1.win 2).blk t).view.emb (ix2 y q)
      = ix2 (⟨t.val * 5000 + y.val, by omega⟩ : Fin 100000) q := by
    funext a; apply Fin.ext
    match a with
    | ⟨0, _⟩ => show win1_2.index t (0 : Fin 2) * 5000 + 1 * y.val = t.val * 5000 + y.val; rw [e20]; omega
    | ⟨1, _⟩ => show win1_2.index t (1 : Fin 2) * 256 + 1 * q.val = q.val; rw [e21]; omega
  rw [hemb]
  have hb : (iblk1 V c 1 t : S1x256.Idx → EReal) = V c main_v44 := by
    funext x
    show V c main_v44 (((cfg1.win 1).blk t).view.emb x) = _
    refine congrArg (V c main_v44) ?_
    funext a; apply Fin.ext
    match a with
    | ⟨0, _⟩ => show win1_1.index t (0 : Fin 2) * 1 + 1 * (x 0).val = (x 0).val; rw [e10]; omega
    | ⟨1, _⟩ => show win1_1.index t (1 : Fin 2) * 256 + 1 * (x 1).val = (x 1).val; rw [e11]; omega
  rw [hb]
  refine biasRelu_rows (V c main_v43) (iblk1 V c 0 t) (V c main_v44) y _ q (fun k => ?_)
  · show V c main_v43 (((cfg1.win 0).blk t).view.emb (ix2 y k)) = _
    refine congrArg (V c main_v43) ?_
    funext a; apply Fin.ext
    match a with
    | ⟨0, _⟩ => show win1_0.index t (0 : Fin 2) * 5000 + 1 * y.val = t.val * 5000 + y.val; rw [e00]; omega
    | ⟨1, _⟩ => show win1_0.index t (1 : Fin 2) * 256 + 1 * k.val = k.val; rw [e01]; omega

/-- An index of the result array is in point t's block iff each coordinate is in the block's range on its axis. -/
theorem mem_blk1 (t : Fin cfg1.N) (i : S100000x256.Idx) :
    i ∈ ((cfg1.win 2).blk t).view.set ↔ ∀ a : Fin 2, win1_2.index t a * S5000x256.size a ≤ (i a).val
      ∧ (i a).val < win1_2.index t a * S5000x256.size a + S5000x256.size a := by
  show i ∈ ((View.whole main_v45).slice (win1_2.rect t)).set ↔ _
  rw [View.set_slice_whole, Rect.mem_set_unit]
  exact Iff.rfl

/-- Row r of the result array is in the block of point r / 5000, which writes back: the blocks tile the array. -/
theorem cover1 (i : S100000x256.Idx) :
    ∃ t : Fin cfg1.N, (cfg1.win 2).flush t = true ∧ i ∈ ((cfg1.win 2).blk t).view.set := by
  have hi0 : (i 0).val < 100000 := (i 0).isLt
  have hi1 : (i 1).val < 256 := (i 1).isLt
  have hlt : (i 0).val / 5000 < cfg1.N := lt_of_lt_of_eq (by omega : (i 0).val / 5000 < 20) N_1.symm
  obtain ⟨e00, e01, e10, e11, e20, e21⟩ := idx_facts1 ⟨(i 0).val / 5000, hlt⟩
  refine ⟨⟨(i 0).val / 5000, hlt⟩, flush1_2 _, ?_⟩
  rw [mem_blk1]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win1_2.index ⟨(i 0).val / 5000, hlt⟩ (1 : Fin 2) * 256 ≤ (i 1).val
      ∧ (i 1).val < win1_2.index ⟨(i 0).val / 5000, hlt⟩ (1 : Fin 2) * 256 + 256
    rw [e21]; omega

/-- So region 1's result array ends holding `G1` of its operand arrays. -/
theorem arr1 (c : Dev nD) : (dat1 (F := Ideal) V c).arrAt 2 cfg1.N = G1 (V c main_v43) (V c main_v44) :=
  (dat1 (F := Ideal) V c).arrAt_eq_of_cover 2 _ (fun t _ => flushed1 V c t) (cover1)

/-! ## Region 2: the second dense product -/

/-- The index maps of region 2's three windows, decided over its twenty grid points: the row-block operand and the
    result move with the point, the other operand stays whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What region 2 leaves in its result array, as a function of its two operand arrays. -/
abbrev G2 (a0 : S100000x256.Idx → EReal) (a1 : S256x40.Idx → EReal) : S100000x40.Idx → EReal := matProd a0 a1

/-- What point t writes back is rows 5000·t … 5000·t + 4999 of `G2` of the operand arrays as the region finds them:
    an entry of the body's result depends on one row of its row block, and that row is a row of the whole operand. -/
theorem flushed2 (c : Dev nD) (t : Fin cfg2.N) :
    (dat2 (F := Ideal) V c).flushed 2 t
      = ((cfg2.win 2).blk t).view.read (Elt Ideal) (G2 (V c main_v45) (V c main_arg4)) := by
  show (cfg2.win 2).cut (grid2.coords t) ((dat2 (F := Ideal) V c).after 2 t) = _
  rw [after2_2]
  unfold out2_2
  rw [View.canon_unit_zero hz]
  simp only [View.ld_unit_zero (S := S5000x256) hz, View.ld_unit_zero (S := S256x40) hz]
  rw [product2_body]
  obtain ⟨e00, e01, e10, e11, e20, e21⟩ := idx_facts2 t
  funext j
  have ht : t.val < 20 := lt_of_lt_of_eq t.isLt N_2
  show matProd (iblk2 V c 0 t) (iblk2 V c 1 t) j = G2 (V c main_v45) (V c main_arg4) (((cfg2.win 2).blk t).view.emb j)
  obtain ⟨y, q, rfl⟩ : ∃ (y : Fin 5000) (q : Fin 40), j = ix2 y q := ⟨j 0, j 1, eq_ix2 j⟩
  have hemb : ((cfg2.win 2).blk t).view.emb (ix2 y q)
      = ix2 (⟨t.val * 5000 + y.val, by omega⟩ : Fin 100000) q := by
    funext a; apply Fin.ext
    match a with
    | ⟨0, _⟩ => show win2_2.index t (0 : Fin 2) * 5000 + 1 * y.val = t.val * 5000 + y.val; rw [e20]; omega
    | ⟨1, _⟩ => show win2_2.index t (1 : Fin 2) * 40 + 1 * q.val = q.val; rw [e21]; omega
  rw [hemb]
  refine matProd_block (V c main_v45) (iblk2 V c 0 t) (V c main_arg4) (iblk2 V c 1 t) y q _ q (fun k => ?_) (fun k => ?_)
  · show V c main_v45 (((cfg2.win 0).blk t).view.emb (ix2 y k)) = _
    refine congrArg (V c main_v45) ?_
    funext a; apply Fin.ext
    match a with
    | ⟨0, _⟩ => show win2_0.index t (0 : Fin 2) * 5000 + 1 * y.val = t.val * 5000 + y.val; rw [e00]; omega
    | ⟨1, _⟩ => show win2_0.index t (1 : Fin 2) * 256 + 1 * k.val = k.val; rw [e01]; omega
  · show V c main_arg4 (((cfg2.win 1).blk t).view.emb (ix2 k q)) = _
    refine congrArg (V c main_arg4) ?_
    funext a; apply Fin.ext
    match a with
    | ⟨0, _⟩ => show win2_1.index t (0 : Fin 2) * 256 + 1 * k.val = k.val; rw [e10]; omega
    | ⟨1, _⟩ => show win2_1.index t (1 : Fin 2) * 40 + 1 * q.val = q.val; rw [e11]; omega

/-- An index of the result array is in point t's block iff each coordinate is in the block's range on its axis. -/
theorem mem_blk2 (t : Fin cfg2.N) (i : S100000x40.Idx) :
    i ∈ ((cfg2.win 2).blk t).view.set ↔ ∀ a : Fin 2, win2_2.index t a * S5000x40.size a ≤ (i a).val
      ∧ (i a).val < win2_2.index t a * S5000x40.size a + S5000x40.size a := by
  show i ∈ ((View.whole main_v46).slice (win2_2.rect t)).set ↔ _
  rw [View.set_slice_whole, Rect.mem_set_unit]
  exact Iff.rfl

/-- Row r of the result array is in the block of point r / 5000, which writes back: the blocks tile the array. -/
theorem cover2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hlt : (i 0).val / 5000 < cfg2.N := lt_of_lt_of_eq (by omega : (i 0).val / 5000 < 20) N_2.symm
  obtain ⟨e00, e01, e10, e11, e20, e21⟩ := idx_facts2 ⟨(i 0).val / 5000, hlt⟩
  refine ⟨⟨(i 0).val / 5000, hlt⟩, flush2_2 _, ?_⟩
  rw [mem_blk2]
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win2_2.index ⟨(i 0).val / 5000, hlt⟩ (1 : Fin 2) * 40 ≤ (i 1).val
      ∧ (i 1).val < win2_2.index ⟨(i 0).val / 5000, hlt⟩ (1 : Fin 2) * 40 + 40
    rw [e21]; omega

/-- So region 2's result array ends holding `G2` of its operand arrays. -/
theorem arr2 (c : Dev nD) : (dat2 (F := Ideal) V c).arrAt 2 cfg2.N = G2 (V c main_v45) (V c main_arg4) :=
  (dat2 (F := Ideal) V c).arrAt_eq_of_cover 2 _ (fun t _ => flushed2 V c t) (cover2)

/-! ## Region 3: the bias and log-softmax -/

/-- The index maps of region 3's three windows, decided over its twenty grid points: the row-block operand and the
    result move with the point, the other operand stays whole. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What region 3 leaves in its result array, as a function of its two operand arrays. -/
abbrev G3 (a0 : S100000x40.Idx → EReal) (a1 : S1x40.Idx → EReal) : S100000x40.Idx → EReal := biasLogSoftmax a0 a1

/-- What point t writes back is rows 5000·t … 5000·t + 4999 of `G3` of the operand arrays as the region finds them:
    an entry of the body's result depends on one row of its row block, and that row is a row of the whole operand. -/
theorem flushed3 (c : Dev nD) (t : Fin cfg3.N) :
    (dat3 (F := Ideal) V c).flushed 2 t
      = ((cfg3.win 2).blk t).view.read (Elt Ideal) (G3 (V c main_v59) (V c main_v60)) := by
  show (cfg3.win 2).cut (grid3.coords t) ((dat3 (F := Ideal) V c).after 2 t) = _
  rw [after3_2]
  unfold out3_2
  rw [View.canon_unit_zero hz]
  simp only [View.ld_unit_zero (S := S5000x40) hz, View.ld_unit_zero (S := S1x40) hz]
  rw [biasLogSoftmax_body]
  obtain ⟨e00, e01, e10, e11, e20, e21⟩ := idx_facts3 t
  funext j
  have ht : t.val < 20 := lt_of_lt_of_eq t.isLt N_3
  show biasLogSoftmax (iblk3 V c 0 t) (iblk3 V c 1 t) j = G3 (V c main_v59) (V c main_v60) (((cfg3.win 2).blk t).view.emb j)
  obtain ⟨y, q, rfl⟩ : ∃ (y : Fin 5000) (q : Fin 40), j = ix2 y q := ⟨j 0, j 1, eq_ix2 j⟩
  have hemb : ((cfg3.win 2).blk t).view.emb (ix2 y q)
      = ix2 (⟨t.val * 5000 + y.val, by omega⟩ : Fin 100000) q := by
    funext a; apply Fin.ext
    match a with
    | ⟨0, _⟩ => show win3_2.index t (0 : Fin 2) * 5000 + 1 * y.val = t.val * 5000 + y.val; rw [e20]; omega
    | ⟨1, _⟩ => show win3_2.index t (1 : Fin 2) * 40 + 1 * q.val = q.val; rw [e21]; omega
  rw [hemb]
  have hb : (iblk3 V c 1 t : S1x40.Idx → EReal) = V c main_v60 := by
    funext x
    show V c main_v60 (((cfg3.win 1).blk t).view.emb x) = _
    refine congrArg (V c main_v60) ?_
    funext a; apply Fin.ext
    match a with
    | ⟨0, _⟩ => show win3_1.index t (0 : Fin 2) * 1 + 1 * (x 0).val = (x 0).val; rw [e10]; omega
    | ⟨1, _⟩ => show win3_1.index t (1 : Fin 2) * 40 + 1 * (x 1).val = (x 1).val; rw [e11]; omega
  rw [hb]
  refine biasLogSoftmax_rows (V c main_v59) (iblk3 V c 0 t) (V c main_v60) y _ q (fun k => ?_)
  · show V c main_v59 (((cfg3.win 0).blk t).view.emb (ix2 y k)) = _
    refine congrArg (V c main_v59) ?_
    funext a; apply Fin.ext
    match a with
    | ⟨0, _⟩ => show win3_0.index t (0 : Fin 2) * 5000 + 1 * y.val = t.val * 5000 + y.val; rw [e00]; omega
    | ⟨1, _⟩ => show win3_0.index t (1 : Fin 2) * 40 + 1 * k.val = k.val; rw [e01]; omega

/-- An index of the result array is in point t's block iff each coordinate is in the block's range on its axis. -/
theorem mem_blk3 (t : Fin cfg3.N) (i : S100000x40.Idx) :
    i ∈ ((cfg3.win 2).blk t).view.set ↔ ∀ a : Fin 2, win3_2.index t a * S5000x40.size a ≤ (i a).val
      ∧ (i a).val < win3_2.index t a * S5000x40.size a + S5000x40.size a := by
  show i ∈ ((View.whole main_v61).slice (win3_2.rect t)).set ↔ _
  rw [View.set_slice_whole, Rect.mem_set_unit]
  exact Iff.rfl

/-- Row r of the result array is in the block of point r / 5000, which writes back: the blocks tile the array. -/
theorem cover3 (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  have hlt : (i 0).val / 5000 < cfg3.N := lt_of_lt_of_eq (by omega : (i 0).val / 5000 < 20) N_3.symm
  obtain ⟨e00, e01, e10, e11, e20, e21⟩ := idx_facts3 ⟨(i 0).val / 5000, hlt⟩
  refine ⟨⟨(i 0).val / 5000, hlt⟩, flush3_2 _, ?_⟩
  rw [mem_blk3]
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win3_2.index ⟨(i 0).val / 5000, hlt⟩ (1 : Fin 2) * 40 ≤ (i 1).val
      ∧ (i 1).val < win3_2.index ⟨(i 0).val / 5000, hlt⟩ (1 : Fin 2) * 40 + 40
    rw [e21]; omega

/-- So region 3's result array ends holding `G3` of its operand arrays. -/
theorem arr3 (c : Dev nD) : (dat3 (F := Ideal) V c).arrAt 2 cfg3.N = G3 (V c main_v59) (V c main_v60) :=
  (dat3 (F := Ideal) V c).arrAt_eq_of_cover 2 _ (fun t _ => flushed3 V c t) (cover3)

end Cert.KernelIdeal.Blocks

end
-- ==== Proof.HostChain.lean ====
/-
  The host operations that the kernel program and the reference share, each stretch named as one function of the
  arrays it reads, for any float instance: one row of the edge list (`edgeRow0`, `edgeRow1`: the sources, the
  destinations), a list of nodes with the self-loops appended (`withLoops`), a negative index wrapped by the number of
  nodes and put in a column (`wrapIx`), the in-degree of every node as a scatter-add of ones (`degree`), its reciprocal
  square root where positive and zero elsewhere (`invSqrtDegree`), the weight of every edge (`edgeNorm`), and the
  aggregation of a node-feature array over the edges: gather the source rows, scale each by its edge weight,
  scatter-add into the destination rows (`aggregate256`, `aggregate40`). Then the reference's own dense steps: its
  bias-and-relu (`hostBiasRelu`), its last bias (`hostBias40`) and its log-softmax along rows (`hostLogSoftmax`). The
  gathers and scatter-adds are never opened: both programs apply the same ones to arrays that are proved equal.
-/
import proofs.«165430_j65747359367630_1_alg».proof.Proof.Gen.ReferenceIdeal

noncomputable section

namespace Cert.ReferenceIdeal.Chain

open Cert.ReferenceIdeal Cert.ReferenceIdeal.Gen Idealize.ShloMosaic Idealize.ShloMosaic.TcCoe Idealize.SL.Sem

variable {F : FTy → Type} [FloatOps F]

/-- Row 0 of the edge list: the source node of every edge. -/
def edgeRow0 (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge list: the destination node of every edge. -/
def edgeRow1 (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- A list of 800000 nodes followed by every node once (the self-loops). -/
def withLoops (a : (⟨S800000, .i32⟩ : BufTy).Contents (Elt F)) : (⟨S900000, .i32⟩ : BufTy).Contents (Elt F) :=
  concatenate S900000 0 [⟨S800000, a⟩, ⟨S100000, (iotaInDim S100000 32 0)⟩] concatenates_S800000_S100000_S900000_d0

/-- Node indices with a negative one wrapped around, as a column of index vectors. -/
def wrapIx (x : (⟨S900000, .i32⟩ : BufTy).Contents (Elt F)) : (⟨S900000x1, .i32⟩ : BufTy).Contents (Elt F) :=
  broadcastInDim S900000x1 ![0] bcast_S900000_S900000x1_0 (select (cmpi .slt x (broadcastInDim S900000 ![] bcast_S_S900000 (constantI S_ 32 0#32))) (addi x (broadcastInDim S900000 ![] bcast_S_S900000 (constantI S_ 32 100000#32))) x)

/-- The in-degree of every node, self-loop included: ones scatter-added by destination. -/
def degree (dst : (⟨S900000, .i32⟩ : BufTy).Contents (Elt F)) : (⟨S100000, .f32⟩ : BufTy).Contents (Elt F) :=
  Host.scatterAdd (F := F) scatter_S100000_S900000x1_S900000_n_0_0_1 (broadcastInDim S100000 ![] bcast_S_S100000 (constant S_ .f32 0x00000000#32)) (broadcastInDim S900000x1 ![0] bcast_S900000_S900000x1_0 dst) (broadcastInDim S900000 ![] bcast_S_S900000 (constant S_ .f32 0x3F800000#32))

/-- The reciprocal square root of the in-degree where it is positive, zero elsewhere. -/
def invSqrtDegree (dst : (⟨S900000, .i32⟩ : BufTy).Contents (Elt F)) : (⟨S100000, .f32⟩ : BufTy).Contents (Elt F) :=
  select (cmpf .ogt (degree dst) (broadcastInDim S100000 ![] bcast_S_S100000 (constant S_ .f32 0x00000000#32))) (Host.rsqrt (degree dst)) (broadcastInDim S100000 ![] bcast_S_S100000 (id (constant S_ .f32 0x00000000#32)))

/-- The weight of every edge: the product of that value at its two ends. -/
def edgeNorm (src dst : (⟨S900000, .i32⟩ : BufTy).Contents (Elt F)) : (⟨S900000, .f32⟩ : BufTy).Contents (Elt F) :=
  mulf (Host.gather gather_S100000_S900000x1_S900000_n_0_n_n_0_1_1 (invSqrtDegree dst) (wrapIx src)) (Host.gather gather_S100000_S900000x1_S900000_n_0_n_n_0_1_1 (invSqrtDegree dst) (wrapIx dst))

/-- A 256-column node-feature array aggregated over the edges. -/
def aggregate256 (h : (⟨S100000x256, .f32⟩ : BufTy).Contents (Elt F)) (src dst : (⟨S900000, .i32⟩ : BufTy).Contents (Elt F)) (nrm : (⟨S900000, .f32⟩ : BufTy).Contents (Elt F)) : (⟨S100000x256, .f32⟩ : BufTy).Contents (Elt F) :=
  Host.scatterAdd scatter_S100000x256_S900000x1_S900000x256_1_0_0_1 (broadcastInDim S100000x256 ![] bcast_S_S100000x256 (constant S_ .f32 0x00000000#32)) (broadcastInDim S900000x1 ![0] bcast_S900000_S900000x1_0 dst) (mulf (Host.gather gather_S100000x256_S900000x1_S900000x256_1_0_n_n_0_1_1256 h (wrapIx src)) (broadcastInDim S900000x256 ![0, 1] bcast_S900000x1_S900000x256_0_1 (broadcastInDim S900000x1 ![0] bcast_S900000_S900000x1_0 nrm)))

/-- A 40-column node-feature array aggregated over the edges. -/
def aggregate40 (h : (⟨S100000x40, .f32⟩ : BufTy).Contents (Elt F)) (src dst : (⟨S900000, .i32⟩ : BufTy).Contents (Elt F)) (nrm : (⟨S900000, .f32⟩ : BufTy).Contents (Elt F)) : (⟨S100000x40, .f32⟩ : BufTy).Contents (Elt F) :=
  Host.scatterAdd scatter_S100000x40_S900000x1_S900000x40_1_0_0_1 (broadcastInDim S100000x40 ![] bcast_S_S100000x40 (constant S_ .f32 0x00000000#32)) (broadcastInDim S900000x1 ![0] bcast_S900000_S900000x1_0 dst) (mulf (Host.gather gather_S100000x40_S900000x1_S900000x40_1_0_n_n_0_1_140 h (wrapIx src)) (broadcastInDim S900000x40 ![0, 1] bcast_S900000x1_S900000x40_0_1 (broadcastInDim S900000x1 ![0] bcast_S900000_S900000x1_0 nrm)))

/-- The reference's first dense step after aggregation: the bias added to every row, then the maximum with zero. -/
def hostBiasRelu (a : (⟨S100000x256, .f32⟩ : BufTy).Contents (Elt F)) (b : (⟨S256, .f32⟩ : BufTy).Contents (Elt F)) : (⟨S100000x256, .f32⟩ : BufTy).Contents (Elt F) :=
  maximumf (addf a (broadcastInDim S100000x256 ![0, 1] bcast_S1x256_S100000x256_0_1 (broadcastInDim S1x256 ![1] bcast_S256_S1x256_1 b))) (broadcastInDim S100000x256 ![] bcast_S_S100000x256 (constant S_ .f32 0x00000000#32))

/-- The reference's last bias, added to every row. -/
def hostBias40 (a : (⟨S100000x40, .f32⟩ : BufTy).Contents (Elt F)) (b : (⟨S40, .f32⟩ : BufTy).Contents (Elt F)) : (⟨S100000x40, .f32⟩ : BufTy).Contents (Elt F) :=
  addf a (broadcastInDim S100000x40 ![0, 1] bcast_S1x40_S100000x40_0_1 (broadcastInDim S1x40 ![1] bcast_S40_S1x40_1 b))

/-- The reference's log-softmax along rows. -/
def hostLogSoftmax (z : (⟨S100000x40, .f32⟩ : BufTy).Contents (Elt F)) : (⟨S100000x40, .f32⟩ : BufTy).Contents (Elt F) :=
  subf (subf z (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x40_S100000_d1 h_S_))))) (broadcastInDim S100000x40 ![0, 1] bcast_S100000x1_S100000x40_0_1 (Host.log (broadcastInDim S100000x1 ![0] bcast_S100000_S100000x1_0 (Host.reduceAdd (Host.exp (subf z (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x40_S100000_d1 h_S_)))))) (constant S_ .f32 0x00000000#32) reducesTo_S100000x40_S100000_d1 h_S_))))

end Cert.ReferenceIdeal.Chain

end
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«165430_j65747359367630_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.Network.lean ====
/-
  The two-layer graph-convolution network on the extended reals, as one function of its six arguments: the node
  features times the first weights, aggregated over the edges with the self-loops (each message scaled by the inverse
  square roots of the in-degrees at its two ends), the first bias added and the maximum with zero taken; that times the
  second weights, aggregated again, the second bias added, and the log-softmax of every row. The dense steps are the
  specification's (`matProd`, `biasRelu`, `biasLogSoftmax`); the gathers and scatter-adds over the edges are the host
  chain's, which both programs share.
-/
import proofs.«165430_j65747359367630_1_alg».proof.Proof.HostChain
import proofs.«165430_j65747359367630_1_alg».proof.Proof.Spec
import proofs.«165430_j65747359367630_1_alg».proof.Proof.LibMatProd
import proofs.«165430_j65747359367630_1_alg».proof.Proof.LibRowVector

noncomputable section

namespace Cert.GraphConv

open Cert.ReferenceIdeal Cert.ReferenceIdeal.Chain Idealize.ShloMosaic Cert.Lib.MatProd Cert.Lib.RowVector

/-- The network's output from the node features x0, the edge list x1, the weights x2, x4 and the biases x3, x5. -/
def network (x0 : S100000x128.Idx → EReal) (x1 : (⟨S2x800000, .i32⟩ : BufTy).Contents (Elt Ideal))
    (x2 : S128x256.Idx → EReal) (x3 : S256.Idx → EReal) (x4 : S256x40.Idx → EReal) (x5 : S40.Idx → EReal) :
    S100000x40.Idx → EReal :=
  biasLogSoftmax (aggregate40 (F := Ideal) (matProd (biasRelu (aggregate256 (F := Ideal) (matProd x0 x2)
        (withLoops (edgeRow0 x1)) (withLoops (edgeRow1 x1)) (edgeNorm (withLoops (edgeRow0 x1)) (withLoops (edgeRow1 x1))))
      (asRow x3)) x4)
    (withLoops (edgeRow0 x1)) (withLoops (edgeRow1 x1)) (edgeNorm (withLoops (edgeRow0 x1)) (withLoops (edgeRow1 x1))))
    (asRow x5)

end Cert.GraphConv

end
-- ==== Proof.LibTypedRefs.lean ====
/-
  A typed reference to a buffer carries contents to the buffer's own type and back along the equation between the two
  types; carried there and back they are unchanged. Nothing here mentions a program.
-/
import Idealize.ShloMosaic.Lib.StableHlo

namespace Cert.Lib.TypedRefs

open Idealize.ShloMosaic Idealize.ShloMosaic.StableHlo

variable {sig : RefSig} {Val : EltTy → Type}

/-- Contents carried to a buffer's own type and back are unchanged. -/
theorem ofBuf_toBuf {T : BufTy} (x : TRef sig T) (v : T.Contents Val) : x.ofBuf (x.toBuf v) = v := by
  obtain ⟨r, h, _, _⟩ := x
  subst h
  rfl

end Cert.Lib.TypedRefs
-- ==== Proof.KernelValue.lean ====
/-
  The kernel program's result on the extended reals, as the network's layers. Between the launch and the return the
  buffers pass through stretches of host operations and four pipelined regions. The stretches before the first region
  compute the node lists with self-loops and the edge weights from the edge list; the first region leaves the dense
  product of the features and the first weights; the next stretch aggregates it over the edges and lays the first bias
  out as a row; the second region adds the bias to every row and takes the maximum with zero; the third leaves the
  dense product with the second weights; the next stretch aggregates again and lays the second bias out as a row; the
  last region adds it and takes the log-softmax of every row. The host stretches are the functions the reference
  shares (the host chain); each region's result is the function of whole arrays read off its blocks.
-/
import proofs.«165430_j65747359367630_1_alg».proof.Proof.Blocks
import proofs.«165430_j65747359367630_1_alg».proof.Proof.HostChain
import proofs.«165430_j65747359367630_1_alg».proof.Proof.LibRowVector
import proofs.«165430_j65747359367630_1_alg».proof.Proof.Network
import proofs.«165430_j65747359367630_1_alg».proof.Proof.LibTypedRefs

set_option maxRecDepth 16384

open scoped BigOperators

noncomputable section

namespace Cert.KernelIdeal.KernelValue

open Cert.KernelIdeal Cert.KernelIdeal.Gen Cert.KernelIdeal.Blocks
open Idealize.ShloMosaic Idealize.ShloMosaic.TcCoe Idealize.ShloMosaic.ValueIdx Idealize.SL.Sem Idealize.ShloMosaic.StableHlo
open Cert.GraphConv Cert.Lib.MatProd Cert.Lib.RowVector
open Cert.ReferenceIdeal.Chain

section Joins
variable {F : FTy → Type} [FloatOps F]

/-- Two node lists, of 800000 and of 100000 entries, one after the other. -/
def joinLoops (a : (⟨S800000, .i32⟩ : BufTy).Contents (Elt F)) (b : (⟨S100000, .i32⟩ : BufTy).Contents (Elt F)) :
    (⟨S900000, .i32⟩ : BufTy).Contents (Elt F) :=
  concatenate S900000 0 [⟨S800000, a⟩, ⟨S100000, b⟩] concatenates_S800000_S100000_S900000_d0

/-- The first stretch of host operations, the two joins of node lists named. -/
abbrev hostOps0J : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_v4 (iotaInDim S100000 32 0),
    StableHlo.binary main_v1 main_v4 main_v5 joinLoops,
    StableHlo.binary main_v3 main_v4 main_v6 joinLoops,
    StableHlo.nullary main_cst (constant S_ .f32 0x3F800000#32),
    StableHlo.unary main_cst main_v7 (broadcastInDim S900000 ![] bcast_S_S900000 : (⟨S_, .f32⟩ : BufTy).Contents (Elt F) → (⟨S900000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S900000x1 ![0] bcast_S900000_S900000x1_0 : (⟨S900000, .i32⟩ : BufTy).Contents (Elt F) → (⟨S900000x1, .i32⟩ : BufTy).Contents (Elt F)),
    StableHlo.ternary main_v8 main_v9 main_v7 main_v10 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32) ]

theorem hostOps0_eq : (hostOps0 : List (HloOp τ sig (Elt F))) = hostOps0J := rfl

end Joins

section HostStretches
variable {F : FTy → Type} [FloatOps F]
variable (m : (ℓ : Loc nD τ sig) → Buf (Elt F) ℓ) (ρ : Dev nD → PrngReg)

theorem W3_v5 (c : Dev nD) : W3 m ρ c (Proc.devRef .tc main_v5) = withLoops (edgeRow0 (m ((c.tc : Thread nD τ).loc main_arg1))) := by
  after_results_simp <;> rfl

theorem W3_v6 (c : Dev nD) : W3 m ρ c (Proc.devRef .tc main_v6) = withLoops (edgeRow1 (m ((c.tc : Thread nD τ).loc main_arg1))) := by
  after_results_simp <;> rfl

theorem W1_v12 (c : Dev nD) : W1 m ρ c (Proc.devRef .tc main_v12)
    = cmpf .ogt (degree (withLoops (edgeRow1 (m ((c.tc : Thread nD τ).loc main_arg1))))) (broadcastInDim S100000 ![] bcast_S_S100000 (constant (F := F) S_ .f32 0x00000000#32)) := by
  show StableHlo.after hostOps0 (W0 m ρ c) _ = _
  rw [hostOps0_eq]
  after_results_simp <;> rfl

theorem W1_v13 (c : Dev nD) : W1 m ρ c (Proc.devRef .tc main_v13) = Host.rsqrt (degree (withLoops (edgeRow1 (m ((c.tc : Thread nD τ).loc main_arg1))))) := by
  show StableHlo.after hostOps0 (W0 m ρ c) _ = _
  rw [hostOps0_eq]
  after_results_simp <;> rfl

theorem W1_cst_2 (c : Dev nD) : W1 m ρ c (Proc.devRef .tc main_cst_2) = constant (F := F) S_ .f32 0x00000000#32 := by
  show StableHlo.after hostOps0 (W0 m ρ c) _ = _
  rw [hostOps0_eq]
  after_results_simp <;> rfl

/-- The reciprocal square root of the in-degree where positive, zero elsewhere: the outlined selection, read over the
    first stretch's results. -/
theorem W2_v14 (c : Dev nD) : W2 m ρ c (Proc.devRef .tc main_v14) = invSqrtDegree (withLoops (edgeRow1 (m ((c.tc : Thread nD τ).loc main_arg1)))) := by
  show StableHlo.after hostOps0_1 (W1 m ρ c) _ = _
  have h12 := W1_v12 m ρ c
  have h13 := W1_v13 m ρ c
  have hc := W1_cst_2 m ρ c
  generalize W1 m ρ c = X at h12 h13 hc ⊢
  after_results_simp
  simp only [Cert.Lib.TypedRefs.ofBuf_toBuf]
  rw [h12, h13, hc]
  rfl

theorem W2_v5 (c : Dev nD) : W2 m ρ c (Proc.devRef .tc main_v5) = withLoops (edgeRow0 (m ((c.tc : Thread nD τ).loc main_arg1))) := by
  after_results_simp <;> rfl

theorem W2_v6 (c : Dev nD) : W2 m ρ c (Proc.devRef .tc main_v6) = withLoops (edgeRow1 (m ((c.tc : Thread nD τ).loc main_arg1))) := by
  after_results_simp <;> rfl

theorem W3_v29 (c : Dev nD) : W3 m ρ c (Proc.devRef .tc main_v29) = edgeNorm (withLoops (edgeRow0 (m ((c.tc : Thread nD τ).loc main_arg1)))) (withLoops (edgeRow1 (m ((c.tc : Thread nD τ).loc main_arg1)))) := by
  show StableHlo.after hostOps0_2 (W2 m ρ c) _ = _
  have h14 := W2_v14 m ρ c
  have h5 := W2_v5 m ρ c
  have h6 := W2_v6 m ρ c
  generalize W2 m ρ c = X at h14 h5 h6 ⊢
  after_results_simp
  rw [h14, h5, h6]
  rfl

theorem W3_arg0 (c : Dev nD) : W3 m ρ c (Proc.devRef .tc main_arg0) = (m ((c.tc : Thread nD τ).loc main_arg0)) := by
  after_results_simp <;> rfl

theorem W3_arg2 (c : Dev nD) : W3 m ρ c (Proc.devRef .tc main_arg2) = (m ((c.tc : Thread nD τ).loc main_arg2)) := by
  after_results_simp <;> rfl

theorem W3_arg3 (c : Dev nD) : W3 m ρ c (Proc.devRef .tc main_arg3) = (m ((c.tc : Thread nD τ).loc main_arg3)) := by
  after_results_simp <;> rfl

theorem W3_arg4 (c : Dev nD) : W3 m ρ c (Proc.devRef .tc main_arg4) = (m ((c.tc : Thread nD τ).loc main_arg4)) := by
  after_results_simp <;> rfl

theorem W3_arg5 (c : Dev nD) : W3 m ρ c (Proc.devRef .tc main_arg5) = (m ((c.tc : Thread nD τ).loc main_arg5)) := by
  after_results_simp <;> rfl

end HostStretches

variable (m : (ℓ : Loc nD τ sig) → Buf (Elt Ideal) ℓ) (ρ : Dev nD → PrngReg)

/-! ## Before the first region: the node lists, the edge weights, the arguments -/

/-! ## The first region: the dense product of the features and the first weights -/

theorem W4_v30 (c : Dev nD) : W4 m ρ c (Proc.devRef .tc main_v30) = matProd (m ((c.tc : Thread nD τ).loc main_arg0)) (m ((c.tc : Thread nD τ).loc main_arg2)) :=
  (W4_arr m ρ c 2).trans ((arr0 (V3 m ρ) c).trans (by
    show matProd (W3 m ρ c (Proc.devRef .tc main_arg0)) (W3 m ρ c (Proc.devRef .tc main_arg2)) = _
    rw [W3_arg0, W3_arg2]))

theorem W4_v5 (c : Dev nD) : W4 m ρ c (Proc.devRef .tc main_v5) = W3 m ρ c (Proc.devRef .tc main_v5) :=
  W4_of_ne m ρ c main_v5 (by decide)

theorem W4_v6 (c : Dev nD) : W4 m ρ c (Proc.devRef .tc main_v6) = W3 m ρ c (Proc.devRef .tc main_v6) :=
  W4_of_ne m ρ c main_v6 (by decide)

theorem W4_v29 (c : Dev nD) : W4 m ρ c (Proc.devRef .tc main_v29) = W3 m ρ c (Proc.devRef .tc main_v29) :=
  W4_of_ne m ρ c main_v29 (by decide)

theorem W4_arg3 (c : Dev nD) : W4 m ρ c (Proc.devRef .tc main_arg3) = W3 m ρ c (Proc.devRef .tc main_arg3) :=
  W4_of_ne m ρ c main_arg3 (by decide)

theorem W4_arg4 (c : Dev nD) : W4 m ρ c (Proc.devRef .tc main_arg4) = W3 m ρ c (Proc.devRef .tc main_arg4) :=
  W4_of_ne m ρ c main_arg4 (by decide)

theorem W4_arg5 (c : Dev nD) : W4 m ρ c (Proc.devRef .tc main_arg5) = W3 m ρ c (Proc.devRef .tc main_arg5) :=
  W4_of_ne m ρ c main_arg5 (by decide)

/-! ## The first aggregation and the first bias as a row -/

theorem W5_v43 (c : Dev nD) : W5 m ρ c (Proc.devRef .tc main_v43) = aggregate256 (W4 m ρ c (Proc.devRef .tc main_v30)) (W4 m ρ c (Proc.devRef .tc main_v5)) (W4 m ρ c (Proc.devRef .tc main_v6)) (W4 m ρ c (Proc.devRef .tc main_v29)) := by
  after_results_simp <;> rfl

theorem W5_v44 (c : Dev nD) : W5 m ρ c (Proc.devRef .tc main_v44) = shapeCast S1x256 (W4 m ρ c (Proc.devRef .tc main_arg3)) shapeCasts_S256_S1x256 := by
  after_results_simp <;> rfl

theorem W5_v5 (c : Dev nD) : W5 m ρ c (Proc.devRef .tc main_v5) = W4 m ρ c (Proc.devRef .tc main_v5) := by
  after_results_simp <;> rfl

theorem W5_v6 (c : Dev nD) : W5 m ρ c (Proc.devRef .tc main_v6) = W4 m ρ c (Proc.devRef .tc main_v6) := by
  after_results_simp <;> rfl

theorem W5_v29 (c : Dev nD) : W5 m ρ c (Proc.devRef .tc main_v29) = W4 m ρ c (Proc.devRef .tc main_v29) := by
  after_results_simp <;> rfl

theorem W5_arg4 (c : Dev nD) : W5 m ρ c (Proc.devRef .tc main_arg4) = W4 m ρ c (Proc.devRef .tc main_arg4) := by
  after_results_simp <;> rfl

theorem W5_arg5 (c : Dev nD) : W5 m ρ c (Proc.devRef .tc main_arg5) = W4 m ρ c (Proc.devRef .tc main_arg5) := by
  after_results_simp <;> rfl

/-! ## The second region (bias and relu) and the third (the second dense product) -/

theorem W6_v45 (c : Dev nD) : W6 m ρ c (Proc.devRef .tc main_v45) = biasRelu (W5 m ρ c (Proc.devRef .tc main_v43)) (W5 m ρ c (Proc.devRef .tc main_v44)) :=
  (W6_arr m ρ c 2).trans (arr1 (V5 m ρ) c)

theorem W6_v5 (c : Dev nD) : W6 m ρ c (Proc.devRef .tc main_v5) = W5 m ρ c (Proc.devRef .tc main_v5) :=
  W6_of_ne m ρ c main_v5 (by decide)

theorem W6_v6 (c : Dev nD) : W6 m ρ c (Proc.devRef .tc main_v6) = W5 m ρ c (Proc.devRef .tc main_v6) :=
  W6_of_ne m ρ c main_v6 (by decide)

theorem W6_v29 (c : Dev nD) : W6 m ρ c (Proc.devRef .tc main_v29) = W5 m ρ c (Proc.devRef .tc main_v29) :=
  W6_of_ne m ρ c main_v29 (by decide)

theorem W6_arg4 (c : Dev nD) : W6 m ρ c (Proc.devRef .tc main_arg4) = W5 m ρ c (Proc.devRef .tc main_arg4) :=
  W6_of_ne m ρ c main_arg4 (by decide)

theorem W6_arg5 (c : Dev nD) : W6 m ρ c (Proc.devRef .tc main_arg5) = W5 m ρ c (Proc.devRef .tc main_arg5) :=
  W6_of_ne m ρ c main_arg5 (by decide)

theorem W7_v46 (c : Dev nD) : W7 m ρ c (Proc.devRef .tc main_v46) = matProd (W6 m ρ c (Proc.devRef .tc main_v45)) (W6 m ρ c (Proc.devRef .tc main_arg4)) :=
  (W7_arr m ρ c 2).trans (arr2 (V6 m ρ) c)

theorem W7_v5 (c : Dev nD) : W7 m ρ c (Proc.devRef .tc main_v5) = W6 m ρ c (Proc.devRef .tc main_v5) :=
  W7_of_ne m ρ c main_v5 (by decide)

theorem W7_v6 (c : Dev nD) : W7 m ρ c (Proc.devRef .tc main_v6) = W6 m ρ c (Proc.devRef .tc main_v6) :=
  W7_of_ne m ρ c main_v6 (by decide)

theorem W7_v29 (c : Dev nD) : W7 m ρ c (Proc.devRef .tc main_v29) = W6 m ρ c (Proc.devRef .tc main_v29) :=
  W7_of_ne m ρ c main_v29 (by decide)

theorem W7_arg5 (c : Dev nD) : W7 m ρ c (Proc.devRef .tc main_arg5) = W6 m ρ c (Proc.devRef .tc main_arg5) :=
  W7_of_ne m ρ c main_arg5 (by decide)

/-! ## The second aggregation, the second bias as a row, and the last region -/

theorem W8_v59 (c : Dev nD) : W8 m ρ c (Proc.devRef .tc main_v59) = aggregate40 (W7 m ρ c (Proc.devRef .tc main_v46)) (W7 m ρ c (Proc.devRef .tc main_v5)) (W7 m ρ c (Proc.devRef .tc main_v6)) (W7 m ρ c (Proc.devRef .tc main_v29)) := by
  after_results_simp <;> rfl

theorem W8_v60 (c : Dev nD) : W8 m ρ c (Proc.devRef .tc main_v60) = shapeCast S1x40 (W7 m ρ c (Proc.devRef .tc main_arg5)) shapeCasts_S40_S1x40 := by
  after_results_simp <;> rfl

theorem W9_v61 (c : Dev nD) : W9 m ρ c (Proc.devRef .tc main_v61) = biasLogSoftmax (W8 m ρ c (Proc.devRef .tc main_v59)) (W8 m ρ c (Proc.devRef .tc main_v60)) :=
  (W9_arr m ρ c 2).trans (arr3 (V8 m ρ) c)

/-! ## The result -/

/-- The kernel program's result buffer ends at the network of the launch memory's arguments. -/
theorem result (c : Dev nD) : W9 m ρ c (Proc.devRef .tc main_v61)
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [W9_v61, W8_v59, W8_v60, W7_v46, W7_v5, W7_v6, W7_v29, W7_arg5, W6_v45, W6_v5, W6_v6, W6_v29, W6_arg4, W6_arg5,
    W5_v43, W5_v44, W5_v5, W5_v6, W5_v29, W5_arg4, W5_arg5, W4_v30, W4_v5, W4_v6, W4_v29, W4_arg3, W4_arg4, W4_arg5,
    W3_v5, W3_v6, W3_v29, W3_arg3, W3_arg4, W3_arg5, shapeCast_eq_asRow, shapeCast_eq_asRow]
  rfl

end Cert.KernelIdeal.KernelValue

end
-- ==== Proof.RefOps.lean ====
/-
  The reference program's operations. Its @main is a straight line of 134 host operations; they are listed here whole and
  in five stretches: up to the edge weights and the first dense product; the first aggregation, bias-and-relu and
  second dense product; the edge weights again; the second aggregation and bias; the log-softmax. The line is the five
  stretches one after the other, and a fold over two stretches is the fold over the second of the fold over the first.
-/
import proofs.«165430_j65747359367630_1_alg».proof.Proof.Gen.ReferenceIdeal
import proofs.«165430_j65747359367630_1_alg».proof.Proof.HostChain
import Idealize.ShloMosaic.Lib.StableHlo.Run

noncomputable section

namespace Cert.ReferenceIdeal.RefOps

open Cert.ReferenceIdeal Cert.ReferenceIdeal.Gen Cert.ReferenceIdeal.Chain
open Idealize.ShloMosaic Idealize.ShloMosaic.TcCoe Idealize.SL.Sem Idealize.ShloMosaic.StableHlo

variable {F : FTy → Type} [FloatOps F]

/-- Operations 1–41: the edge rows, the first dense product, the node lists with self-loops, the edge weights. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    nullary main_v5 (iotaInDim S100000 32 0),
    binary main_v1 main_v5 main_v6 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    binary main_v3 main_v5 main_v7 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    nullary main_cst (constant S_ .f32 0x3F800000#32),
    unary main_cst main_v8 (broadcastInDim S900000 ![] bcast_S_S900000 : (⟨S_, .f32⟩ : BufTy).Contents (Elt F) → (⟨S900000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S900000x1 ![0] bcast_S900000_S900000x1_0 : (⟨S900000, .i32⟩ : BufTy).Contents (Elt F) → (⟨S900000x1, .i32⟩ : BufTy).Contents (Elt F)),
    ternary main_v9 main_v10 main_v8 main_v11 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S900000 ![] bcast_S_S900000 : (⟨S_, .i32⟩ : BufTy).Contents (Elt F) → (⟨S900000, .i32⟩ : BufTy).Contents (Elt F)),
    binary main_v6 main_v16 main_v17 (cmpi .slt : (⟨S900000, .i32⟩ : BufTy).Contents (Elt F) → (⟨S900000, .i32⟩ : BufTy).Contents (Elt F) → (⟨S900000, .i1⟩ : BufTy).Contents (Elt F)),
    nullary main_c_3 (constantI S_ 32 100000#32),
    unary main_c_3 main_v18 (broadcastInDim S900000 ![] bcast_S_S900000 : (⟨S_, .i32⟩ : BufTy).Contents (Elt F) → (⟨S900000, .i32⟩ : BufTy).Contents (Elt F)),
    binary main_v6 main_v18 main_v19 (addi : (⟨S900000, .i32⟩ : BufTy).Contents (Elt F) → (⟨S900000, .i32⟩ : BufTy).Contents (Elt F) → (⟨S900000, .i32⟩ : BufTy).Contents (Elt F)),
    ternary main_v17 main_v19 main_v6 main_v20 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v20 main_v21 (broadcastInDim S900000x1 ![0] bcast_S900000_S900000x1_0 : (⟨S900000, .i32⟩ : BufTy).Contents (Elt F) → (⟨S900000x1, .i32⟩ : BufTy).Contents (Elt F)),
    binary main_v15 main_v21 main_v22 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    nullary main_c_4 (constantI S_ 32 0#32),
    unary main_c_4 main_v23 (broadcastInDim S900000 ![] bcast_S_S900000 : (⟨S_, .i32⟩ : BufTy).Contents (Elt F) → (⟨S900000, .i32⟩ : BufTy).Contents (Elt F)),
    binary main_v7 main_v23 main_v24 (cmpi .slt : (⟨S900000, .i32⟩ : BufTy).Contents (Elt F) → (⟨S900000, .i32⟩ : BufTy).Contents (Elt F) → (⟨S900000, .i1⟩ : BufTy).Contents (Elt F)),
    nullary main_c_5 (constantI S_ 32 100000#32),
    unary main_c_5 main_v25 (broadcastInDim S900000 ![] bcast_S_S900000 : (⟨S_, .i32⟩ : BufTy).Contents (Elt F) → (⟨S900000, .i32⟩ : BufTy).Contents (Elt F)),
    binary main_v7 main_v25 main_v26 (addi : (⟨S900000, .i32⟩ : BufTy).Contents (Elt F) → (⟨S900000, .i32⟩ : BufTy).Contents (Elt F) → (⟨S900000, .i32⟩ : BufTy).Contents (Elt F)),
    ternary main_v24 main_v26 main_v7 main_v27 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v27 main_v28 (broadcastInDim S900000x1 ![0] bcast_S900000_S900000x1_0 : (⟨S900000, .i32⟩ : BufTy).Contents (Elt F) → (⟨S900000x1, .i32⟩ : BufTy).Contents (Elt F)),
    binary main_v15 main_v28 main_v29 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v22 main_v29 main_v30 (mulf : (⟨S900000, .f32⟩ : BufTy).Contents (Elt F) → (⟨S900000, .f32⟩ : BufTy).Contents (Elt F) → (⟨S900000, .f32⟩ : BufTy).Contents (Elt F)) ]

/-- Operations 42–64: the first aggregation, the bias and relu, the second dense product. -/
abbrev opsB : List (HloOp τ sig (Elt F)) :=
  [ nullary main_c_6 (constantI S_ 32 0#32),
    unary main_c_6 main_v31 (broadcastInDim S900000 ![] bcast_S_S900000 : (⟨S_, .i32⟩ : BufTy).Contents (Elt F) → (⟨S900000, .i32⟩ : BufTy).Contents (Elt F)),
    binary main_v6 main_v31 main_v32 (cmpi .slt : (⟨S900000, .i32⟩ : BufTy).Contents (Elt F) → (⟨S900000, .i32⟩ : BufTy).Contents (Elt F) → (⟨S900000, .i1⟩ : BufTy).Contents (Elt F)),
    nullary main_c_7 (constantI S_ 32 100000#32),
    unary main_c_7 main_v33 (broadcastInDim S900000 ![] bcast_S_S900000 : (⟨S_, .i32⟩ : BufTy).Contents (Elt F) → (⟨S900000, .i32⟩ : BufTy).Contents (Elt F)),
    binary main_v6 main_v33 main_v34 (addi : (⟨S900000, .i32⟩ : BufTy).Contents (Elt F) → (⟨S900000, .i32⟩ : BufTy).Contents (Elt F) → (⟨S900000, .i32⟩ : BufTy).Contents (Elt F)),
    ternary main_v32 main_v34 main_v6 main_v35 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v35 main_v36 (broadcastInDim S900000x1 ![0] bcast_S900000_S900000x1_0 : (⟨S900000, .i32⟩ : BufTy).Contents (Elt F) → (⟨S900000x1, .i32⟩ : BufTy).Contents (Elt F)),
    binary main_v4 main_v36 main_v37 ((fun x i => Host.gather gather_S100000x256_S900000x1_S900000x256_1_0_n_n_0_1_1256 x i) : (⟨S100000x256, .f32⟩ : BufTy).Contents (Elt F) → (⟨S900000x1, .i32⟩ : BufTy).Contents (Elt F) → (⟨S900000x256, .f32⟩ : BufTy).Contents (Elt F)),
    unary main_v30 main_v38 (broadcastInDim S900000x1 ![0] bcast_S900000_S900000x1_0 : (⟨S900000, .f32⟩ : BufTy).Contents (Elt F) → (⟨S900000x1, .f32⟩ : BufTy).Contents (Elt F)),
    unary main_v38 main_v39 (broadcastInDim S900000x256 ![0, 1] bcast_S900000x1_S900000x256_0_1 : (⟨S900000x1, .f32⟩ : BufTy).Contents (Elt F) → (⟨S900000x256, .f32⟩ : BufTy).Contents (Elt F)),
    binary main_v37 main_v39 main_v40 (mulf : (⟨S900000x256, .f32⟩ : BufTy).Contents (Elt F) → (⟨S900000x256, .f32⟩ : BufTy).Contents (Elt F) → (⟨S900000x256, .f32⟩ : BufTy).Contents (Elt F)),
    nullary main_cst_8 (constant S_ .f32 0x00000000#32),
    unary main_cst_8 main_v41 (broadcastInDim S100000x256 ![] bcast_S_S100000x256 : (⟨S_, .f32⟩ : BufTy).Contents (Elt F) → (⟨S100000x256, .f32⟩ : BufTy).Contents (Elt F)),
    unary main_v7 main_v42 (broadcastInDim S900000x1 ![0] bcast_S900000_S900000x1_0 : (⟨S900000, .i32⟩ : BufTy).Contents (Elt F) → (⟨S900000x1, .i32⟩ : BufTy).Contents (Elt F)),
    ternary main_v41 main_v42 main_v40 main_v43 ((fun x i u => Host.scatterAdd scatter_S100000x256_S900000x1_S900000x256_1_0_0_1 x i u) : (⟨S100000x256, .f32⟩ : BufTy).Contents (Elt F) → (⟨S900000x1, .i32⟩ : BufTy).Contents (Elt F) → (⟨S900000x256, .f32⟩ : BufTy).Contents (Elt F) → (⟨S100000x256, .f32⟩ : BufTy).Contents (Elt F)),
    unary main_arg3 main_v44 (broadcastInDim S1x256 ![1] bcast_S256_S1x256_1 : (⟨S256, .f32⟩ : BufTy).Contents (Elt F) → (⟨S1x256, .f32⟩ : BufTy).Contents (Elt F)),
    unary main_v44 main_v45 (broadcastInDim S100000x256 ![0, 1] bcast_S1x256_S100000x256_0_1 : (⟨S1x256, .f32⟩ : BufTy).Contents (Elt F) → (⟨S100000x256, .f32⟩ : BufTy).Contents (Elt F)),
    binary main_v43 main_v45 main_v46 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x256, .f32⟩) main_call1_v0) (broadcastInDim S100000x256 ![] bcast_S_S100000x256),
    TRef.binary (TRef.of (T := ⟨S100000x256, .f32⟩) main_v46) (TRef.of (T := ⟨S100000x256, .f32⟩) main_call1_v0) (TRef.of (T := ⟨S100000x256, .f32⟩) main_v47) maximumf,
    binary main_v47 main_arg4 main_v48 ((fun l r => Host.dotGeneral dot_S100000x256_S256x40_S100000x40_1_0_0_1_n_n none l r) : (⟨S100000x256, .f32⟩ : BufTy).Contents (Elt F) → (⟨S256x40, .f32⟩ : BufTy).Contents (Elt F) → (⟨S100000x40, .f32⟩ : BufTy).Contents (Elt F)) ]

/-- Operations 65–100: the node lists and the edge weights, computed again. -/
abbrev opsC : List (HloOp τ sig (Elt F)) :=
  [ nullary main_v49 (iotaInDim S100000 32 0),
    binary main_v1 main_v49 main_v50 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    binary main_v3 main_v49 main_v51 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    nullary main_cst_9 (constant S_ .f32 0x3F800000#32),
    unary main_cst_9 main_v52 (broadcastInDim S900000 ![] bcast_S_S900000 : (⟨S_, .f32⟩ : BufTy).Contents (Elt F) → (⟨S900000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S900000x1 ![0] bcast_S900000_S900000x1_0 : (⟨S900000, .i32⟩ : BufTy).Contents (Elt F) → (⟨S900000x1, .i32⟩ : BufTy).Contents (Elt F)),
    ternary main_v53 main_v54 main_v52 main_v55 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select,
    nullary main_c_13 (constantI S_ 32 0#32),
    unary main_c_13 main_v60 (broadcastInDim S900000 ![] bcast_S_S900000 : (⟨S_, .i32⟩ : BufTy).Contents (Elt F) → (⟨S900000, .i32⟩ : BufTy).Contents (Elt F)),
    binary main_v50 main_v60 main_v61 (cmpi .slt : (⟨S900000, .i32⟩ : BufTy).Contents (Elt F) → (⟨S900000, .i32⟩ : BufTy).Contents (Elt F) → (⟨S900000, .i1⟩ : BufTy).Contents (Elt F)),
    nullary main_c_14 (constantI S_ 32 100000#32),
    unary main_c_14 main_v62 (broadcastInDim S900000 ![] bcast_S_S900000 : (⟨S_, .i32⟩ : BufTy).Contents (Elt F) → (⟨S900000, .i32⟩ : BufTy).Contents (Elt F)),
    binary main_v50 main_v62 main_v63 (addi : (⟨S900000, .i32⟩ : BufTy).Contents (Elt F) → (⟨S900000, .i32⟩ : BufTy).Contents (Elt F) → (⟨S900000, .i32⟩ : BufTy).Contents (Elt F)),
    ternary main_v61 main_v63 main_v50 main_v64 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v64 main_v65 (broadcastInDim S900000x1 ![0] bcast_S900000_S900000x1_0 : (⟨S900000, .i32⟩ : BufTy).Contents (Elt F) → (⟨S900000x1, .i32⟩ : BufTy).Contents (Elt F)),
    binary main_v59 main_v65 main_v66 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    nullary main_c_15 (constantI S_ 32 0#32),
    unary main_c_15 main_v67 (broadcastInDim S900000 ![] bcast_S_S900000 : (⟨S_, .i32⟩ : BufTy).Contents (Elt F) → (⟨S900000, .i32⟩ : BufTy).Contents (Elt F)),
    binary main_v51 main_v67 main_v68 (cmpi .slt : (⟨S900000, .i32⟩ : BufTy).Contents (Elt F) → (⟨S900000, .i32⟩ : BufTy).Contents (Elt F) → (⟨S900000, .i1⟩ : BufTy).Contents (Elt F)),
    nullary main_c_16 (constantI S_ 32 100000#32),
    unary main_c_16 main_v69 (broadcastInDim S900000 ![] bcast_S_S900000 : (⟨S_, .i32⟩ : BufTy).Contents (Elt F) → (⟨S900000, .i32⟩ : BufTy).Contents (Elt F)),
    binary main_v51 main_v69 main_v70 (addi : (⟨S900000, .i32⟩ : BufTy).Contents (Elt F) → (⟨S900000, .i32⟩ : BufTy).Contents (Elt F) → (⟨S900000, .i32⟩ : BufTy).Contents (Elt F)),
    ternary main_v68 main_v70 main_v51 main_v71 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v71 main_v72 (broadcastInDim S900000x1 ![0] bcast_S900000_S900000x1_0 : (⟨S900000, .i32⟩ : BufTy).Contents (Elt F) → (⟨S900000x1, .i32⟩ : BufTy).Contents (Elt F)),
    binary main_v59 main_v72 main_v73 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v66 main_v73 main_v74 (mulf : (⟨S900000, .f32⟩ : BufTy).Contents (Elt F) → (⟨S900000, .f32⟩ : BufTy).Contents (Elt F) → (⟨S900000, .f32⟩ : BufTy).Contents (Elt F)) ]

/-- Operations 101–119: the second aggregation and the last bias. -/
abbrev opsD : List (HloOp τ sig (Elt F)) :=
  [ nullary main_c_17 (constantI S_ 32 0#32),
    unary main_c_17 main_v75 (broadcastInDim S900000 ![] bcast_S_S900000 : (⟨S_, .i32⟩ : BufTy).Contents (Elt F) → (⟨S900000, .i32⟩ : BufTy).Contents (Elt F)),
    binary main_v50 main_v75 main_v76 (cmpi .slt : (⟨S900000, .i32⟩ : BufTy).Contents (Elt F) → (⟨S900000, .i32⟩ : BufTy).Contents (Elt F) → (⟨S900000, .i1⟩ : BufTy).Contents (Elt F)),
    nullary main_c_18 (constantI S_ 32 100000#32),
    unary main_c_18 main_v77 (broadcastInDim S900000 ![] bcast_S_S900000 : (⟨S_, .i32⟩ : BufTy).Contents (Elt F) → (⟨S900000, .i32⟩ : BufTy).Contents (Elt F)),
    binary main_v50 main_v77 main_v78 (addi : (⟨S900000, .i32⟩ : BufTy).Contents (Elt F) → (⟨S900000, .i32⟩ : BufTy).Contents (Elt F) → (⟨S900000, .i32⟩ : BufTy).Contents (Elt F)),
    ternary main_v76 main_v78 main_v50 main_v79 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v79 main_v80 (broadcastInDim S900000x1 ![0] bcast_S900000_S900000x1_0 : (⟨S900000, .i32⟩ : BufTy).Contents (Elt F) → (⟨S900000x1, .i32⟩ : BufTy).Contents (Elt F)),
    binary main_v48 main_v80 main_v81 ((fun x i => Host.gather gather_S100000x40_S900000x1_S900000x40_1_0_n_n_0_1_140 x i) : (⟨S100000x40, .f32⟩ : BufTy).Contents (Elt F) → (⟨S900000x1, .i32⟩ : BufTy).Contents (Elt F) → (⟨S900000x40, .f32⟩ : BufTy).Contents (Elt F)),
    unary main_v74 main_v82 (broadcastInDim S900000x1 ![0] bcast_S900000_S900000x1_0 : (⟨S900000, .f32⟩ : BufTy).Contents (Elt F) → (⟨S900000x1, .f32⟩ : BufTy).Contents (Elt F)),
    unary main_v82 main_v83 (broadcastInDim S900000x40 ![0, 1] bcast_S900000x1_S900000x40_0_1 : (⟨S900000x1, .f32⟩ : BufTy).Contents (Elt F) → (⟨S900000x40, .f32⟩ : BufTy).Contents (Elt F)),
    binary main_v81 main_v83 main_v84 (mulf : (⟨S900000x40, .f32⟩ : BufTy).Contents (Elt F) → (⟨S900000x40, .f32⟩ : BufTy).Contents (Elt F) → (⟨S900000x40, .f32⟩ : BufTy).Contents (Elt F)),
    nullary main_cst_19 (constant S_ .f32 0x00000000#32),
    unary main_cst_19 main_v85 (broadcastInDim S100000x40 ![] bcast_S_S100000x40 : (⟨S_, .f32⟩ : BufTy).Contents (Elt F) → (⟨S100000x40, .f32⟩ : BufTy).Contents (Elt F)),
    unary main_v51 main_v86 (broadcastInDim S900000x1 ![0] bcast_S900000_S900000x1_0 : (⟨S900000, .i32⟩ : BufTy).Contents (Elt F) → (⟨S900000x1, .i32⟩ : BufTy).Contents (Elt F)),
    ternary main_v85 main_v86 main_v84 main_v87 ((fun x i u => Host.scatterAdd scatter_S100000x40_S900000x1_S900000x40_1_0_0_1 x i u) : (⟨S100000x40, .f32⟩ : BufTy).Contents (Elt F) → (⟨S900000x1, .i32⟩ : BufTy).Contents (Elt F) → (⟨S900000x40, .f32⟩ : BufTy).Contents (Elt F) → (⟨S100000x40, .f32⟩ : BufTy).Contents (Elt F)),
    unary main_arg5 main_v88 (broadcastInDim S1x40 ![1] bcast_S40_S1x40_1 : (⟨S40, .f32⟩ : BufTy).Contents (Elt F) → (⟨S1x40, .f32⟩ : BufTy).Contents (Elt F)),
    unary main_v88 main_v89 (broadcastInDim S100000x40 ![0, 1] bcast_S1x40_S100000x40_0_1 : (⟨S1x40, .f32⟩ : BufTy).Contents (Elt F) → (⟨S100000x40, .f32⟩ : BufTy).Contents (Elt F)),
    binary main_v87 main_v89 main_v90 (addf : (⟨S100000x40, .f32⟩ : BufTy).Contents (Elt F) → (⟨S100000x40, .f32⟩ : BufTy).Contents (Elt F) → (⟨S100000x40, .f32⟩ : BufTy).Contents (Elt F)) ]

/-- Operations 120–134: the log-softmax along rows. -/
abbrev opsE : List (HloOp τ sig (Elt F)) :=
  [ TRef.nullary (TRef.of (T := ⟨S_, .f32⟩) main_call3_cst) (constant S_ .f32 0xFF800000#32),
    TRef.binary (TRef.of (T := ⟨S100000x40, .f32⟩) main_v90) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v90) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v91) subf ]

/-- @main's 134 operations, in order. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    nullary main_v5 (iotaInDim S100000 32 0),
    binary main_v1 main_v5 main_v6 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    binary main_v3 main_v5 main_v7 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    nullary main_cst (constant S_ .f32 0x3F800000#32),
    unary main_cst main_v8 (broadcastInDim S900000 ![] bcast_S_S900000 : (⟨S_, .f32⟩ : BufTy).Contents (Elt F) → (⟨S900000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S900000x1 ![0] bcast_S900000_S900000x1_0 : (⟨S900000, .i32⟩ : BufTy).Contents (Elt F) → (⟨S900000x1, .i32⟩ : BufTy).Contents (Elt F)),
    ternary main_v9 main_v10 main_v8 main_v11 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S900000 ![] bcast_S_S900000 : (⟨S_, .i32⟩ : BufTy).Contents (Elt F) → (⟨S900000, .i32⟩ : BufTy).Contents (Elt F)),
    binary main_v6 main_v16 main_v17 (cmpi .slt : (⟨S900000, .i32⟩ : BufTy).Contents (Elt F) → (⟨S900000, .i32⟩ : BufTy).Contents (Elt F) → (⟨S900000, .i1⟩ : BufTy).Contents (Elt F)),
    nullary main_c_3 (constantI S_ 32 100000#32),
    unary main_c_3 main_v18 (broadcastInDim S900000 ![] bcast_S_S900000 : (⟨S_, .i32⟩ : BufTy).Contents (Elt F) → (⟨S900000, .i32⟩ : BufTy).Contents (Elt F)),
    binary main_v6 main_v18 main_v19 (addi : (⟨S900000, .i32⟩ : BufTy).Contents (Elt F) → (⟨S900000, .i32⟩ : BufTy).Contents (Elt F) → (⟨S900000, .i32⟩ : BufTy).Contents (Elt F)),
    ternary main_v17 main_v19 main_v6 main_v20 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v20 main_v21 (broadcastInDim S900000x1 ![0] bcast_S900000_S900000x1_0 : (⟨S900000, .i32⟩ : BufTy).Contents (Elt F) → (⟨S900000x1, .i32⟩ : BufTy).Contents (Elt F)),
    binary main_v15 main_v21 main_v22 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    nullary main_c_4 (constantI S_ 32 0#32),
    unary main_c_4 main_v23 (broadcastInDim S900000 ![] bcast_S_S900000 : (⟨S_, .i32⟩ : BufTy).Contents (Elt F) → (⟨S900000, .i32⟩ : BufTy).Contents (Elt F)),
    binary main_v7 main_v23 main_v24 (cmpi .slt : (⟨S900000, .i32⟩ : BufTy).Contents (Elt F) → (⟨S900000, .i32⟩ : BufTy).Contents (Elt F) → (⟨S900000, .i1⟩ : BufTy).Contents (Elt F)),
    nullary main_c_5 (constantI S_ 32 100000#32),
    unary main_c_5 main_v25 (broadcastInDim S900000 ![] bcast_S_S900000 : (⟨S_, .i32⟩ : BufTy).Contents (Elt F) → (⟨S900000, .i32⟩ : BufTy).Contents (Elt F)),
    binary main_v7 main_v25 main_v26 (addi : (⟨S900000, .i32⟩ : BufTy).Contents (Elt F) → (⟨S900000, .i32⟩ : BufTy).Contents (Elt F) → (⟨S900000, .i32⟩ : BufTy).Contents (Elt F)),
    ternary main_v24 main_v26 main_v7 main_v27 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v27 main_v28 (broadcastInDim S900000x1 ![0] bcast_S900000_S900000x1_0 : (⟨S900000, .i32⟩ : BufTy).Contents (Elt F) → (⟨S900000x1, .i32⟩ : BufTy).Contents (Elt F)),
    binary main_v15 main_v28 main_v29 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v22 main_v29 main_v30 (mulf : (⟨S900000, .f32⟩ : BufTy).Contents (Elt F) → (⟨S900000, .f32⟩ : BufTy).Contents (Elt F) → (⟨S900000, .f32⟩ : BufTy).Contents (Elt F)),
    nullary main_c_6 (constantI S_ 32 0#32),
    unary main_c_6 main_v31 (broadcastInDim S900000 ![] bcast_S_S900000 : (⟨S_, .i32⟩ : BufTy).Contents (Elt F) → (⟨S900000, .i32⟩ : BufTy).Contents (Elt F)),
    binary main_v6 main_v31 main_v32 (cmpi .slt : (⟨S900000, .i32⟩ : BufTy).Contents (Elt F) → (⟨S900000, .i32⟩ : BufTy).Contents (Elt F) → (⟨S900000, .i1⟩ : BufTy).Contents (Elt F)),
    nullary main_c_7 (constantI S_ 32 100000#32),
    unary main_c_7 main_v33 (broadcastInDim S900000 ![] bcast_S_S900000 : (⟨S_, .i32⟩ : BufTy).Contents (Elt F) → (⟨S900000, .i32⟩ : BufTy).Contents (Elt F)),
    binary main_v6 main_v33 main_v34 (addi : (⟨S900000, .i32⟩ : BufTy).Contents (Elt F) → (⟨S900000, .i32⟩ : BufTy).Contents (Elt F) → (⟨S900000, .i32⟩ : BufTy).Contents (Elt F)),
    ternary main_v32 main_v34 main_v6 main_v35 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v35 main_v36 (broadcastInDim S900000x1 ![0] bcast_S900000_S900000x1_0 : (⟨S900000, .i32⟩ : BufTy).Contents (Elt F) → (⟨S900000x1, .i32⟩ : BufTy).Contents (Elt F)),
    binary main_v4 main_v36 main_v37 ((fun x i => Host.gather gather_S100000x256_S900000x1_S900000x256_1_0_n_n_0_1_1256 x i) : (⟨S100000x256, .f32⟩ : BufTy).Contents (Elt F) → (⟨S900000x1, .i32⟩ : BufTy).Contents (Elt F) → (⟨S900000x256, .f32⟩ : BufTy).Contents (Elt F)),
    unary main_v30 main_v38 (broadcastInDim S900000x1 ![0] bcast_S900000_S900000x1_0 : (⟨S900000, .f32⟩ : BufTy).Contents (Elt F) → (⟨S900000x1, .f32⟩ : BufTy).Contents (Elt F)),
    unary main_v38 main_v39 (broadcastInDim S900000x256 ![0, 1] bcast_S900000x1_S900000x256_0_1 : (⟨S900000x1, .f32⟩ : BufTy).Contents (Elt F) → (⟨S900000x256, .f32⟩ : BufTy).Contents (Elt F)),
    binary main_v37 main_v39 main_v40 (mulf : (⟨S900000x256, .f32⟩ : BufTy).Contents (Elt F) → (⟨S900000x256, .f32⟩ : BufTy).Contents (Elt F) → (⟨S900000x256, .f32⟩ : BufTy).Contents (Elt F)),
    nullary main_cst_8 (constant S_ .f32 0x00000000#32),
    unary main_cst_8 main_v41 (broadcastInDim S100000x256 ![] bcast_S_S100000x256 : (⟨S_, .f32⟩ : BufTy).Contents (Elt F) → (⟨S100000x256, .f32⟩ : BufTy).Contents (Elt F)),
    unary main_v7 main_v42 (broadcastInDim S900000x1 ![0] bcast_S900000_S900000x1_0 : (⟨S900000, .i32⟩ : BufTy).Contents (Elt F) → (⟨S900000x1, .i32⟩ : BufTy).Contents (Elt F)),
    ternary main_v41 main_v42 main_v40 main_v43 ((fun x i u => Host.scatterAdd scatter_S100000x256_S900000x1_S900000x256_1_0_0_1 x i u) : (⟨S100000x256, .f32⟩ : BufTy).Contents (Elt F) → (⟨S900000x1, .i32⟩ : BufTy).Contents (Elt F) → (⟨S900000x256, .f32⟩ : BufTy).Contents (Elt F) → (⟨S100000x256, .f32⟩ : BufTy).Contents (Elt F)),
    unary main_arg3 main_v44 (broadcastInDim S1x256 ![1] bcast_S256_S1x256_1 : (⟨S256, .f32⟩ : BufTy).Contents (Elt F) → (⟨S1x256, .f32⟩ : BufTy).Contents (Elt F)),
    unary main_v44 main_v45 (broadcastInDim S100000x256 ![0, 1] bcast_S1x256_S100000x256_0_1 : (⟨S1x256, .f32⟩ : BufTy).Contents (Elt F) → (⟨S100000x256, .f32⟩ : BufTy).Contents (Elt F)),
    binary main_v43 main_v45 main_v46 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x256, .f32⟩) main_call1_v0) (broadcastInDim S100000x256 ![] bcast_S_S100000x256),
    TRef.binary (TRef.of (T := ⟨S100000x256, .f32⟩) main_v46) (TRef.of (T := ⟨S100000x256, .f32⟩) main_call1_v0) (TRef.of (T := ⟨S100000x256, .f32⟩) main_v47) maximumf,
    binary main_v47 main_arg4 main_v48 ((fun l r => Host.dotGeneral dot_S100000x256_S256x40_S100000x40_1_0_0_1_n_n none l r) : (⟨S100000x256, .f32⟩ : BufTy).Contents (Elt F) → (⟨S256x40, .f32⟩ : BufTy).Contents (Elt F) → (⟨S100000x40, .f32⟩ : BufTy).Contents (Elt F)),
    nullary main_v49 (iotaInDim S100000 32 0),
    binary main_v1 main_v49 main_v50 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    binary main_v3 main_v49 main_v51 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    nullary main_cst_9 (constant S_ .f32 0x3F800000#32),
    unary main_cst_9 main_v52 (broadcastInDim S900000 ![] bcast_S_S900000 : (⟨S_, .f32⟩ : BufTy).Contents (Elt F) → (⟨S900000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S900000x1 ![0] bcast_S900000_S900000x1_0 : (⟨S900000, .i32⟩ : BufTy).Contents (Elt F) → (⟨S900000x1, .i32⟩ : BufTy).Contents (Elt F)),
    ternary main_v53 main_v54 main_v52 main_v55 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select,
    nullary main_c_13 (constantI S_ 32 0#32),
    unary main_c_13 main_v60 (broadcastInDim S900000 ![] bcast_S_S900000 : (⟨S_, .i32⟩ : BufTy).Contents (Elt F) → (⟨S900000, .i32⟩ : BufTy).Contents (Elt F)),
    binary main_v50 main_v60 main_v61 (cmpi .slt : (⟨S900000, .i32⟩ : BufTy).Contents (Elt F) → (⟨S900000, .i32⟩ : BufTy).Contents (Elt F) → (⟨S900000, .i1⟩ : BufTy).Contents (Elt F)),
    nullary main_c_14 (constantI S_ 32 100000#32),
    unary main_c_14 main_v62 (broadcastInDim S900000 ![] bcast_S_S900000 : (⟨S_, .i32⟩ : BufTy).Contents (Elt F) → (⟨S900000, .i32⟩ : BufTy).Contents (Elt F)),
    binary main_v50 main_v62 main_v63 (addi : (⟨S900000, .i32⟩ : BufTy).Contents (Elt F) → (⟨S900000, .i32⟩ : BufTy).Contents (Elt F) → (⟨S900000, .i32⟩ : BufTy).Contents (Elt F)),
    ternary main_v61 main_v63 main_v50 main_v64 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v64 main_v65 (broadcastInDim S900000x1 ![0] bcast_S900000_S900000x1_0 : (⟨S900000, .i32⟩ : BufTy).Contents (Elt F) → (⟨S900000x1, .i32⟩ : BufTy).Contents (Elt F)),
    binary main_v59 main_v65 main_v66 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    nullary main_c_15 (constantI S_ 32 0#32),
    unary main_c_15 main_v67 (broadcastInDim S900000 ![] bcast_S_S900000 : (⟨S_, .i32⟩ : BufTy).Contents (Elt F) → (⟨S900000, .i32⟩ : BufTy).Contents (Elt F)),
    binary main_v51 main_v67 main_v68 (cmpi .slt : (⟨S900000, .i32⟩ : BufTy).Contents (Elt F) → (⟨S900000, .i32⟩ : BufTy).Contents (Elt F) → (⟨S900000, .i1⟩ : BufTy).Contents (Elt F)),
    nullary main_c_16 (constantI S_ 32 100000#32),
    unary main_c_16 main_v69 (broadcastInDim S900000 ![] bcast_S_S900000 : (⟨S_, .i32⟩ : BufTy).Contents (Elt F) → (⟨S900000, .i32⟩ : BufTy).Contents (Elt F)),
    binary main_v51 main_v69 main_v70 (addi : (⟨S900000, .i32⟩ : BufTy).Contents (Elt F) → (⟨S900000, .i32⟩ : BufTy).Contents (Elt F) → (⟨S900000, .i32⟩ : BufTy).Contents (Elt F)),
    ternary main_v68 main_v70 main_v51 main_v71 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v71 main_v72 (broadcastInDim S900000x1 ![0] bcast_S900000_S900000x1_0 : (⟨S900000, .i32⟩ : BufTy).Contents (Elt F) → (⟨S900000x1, .i32⟩ : BufTy).Contents (Elt F)),
    binary main_v59 main_v72 main_v73 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v66 main_v73 main_v74 (mulf : (⟨S900000, .f32⟩ : BufTy).Contents (Elt F) → (⟨S900000, .f32⟩ : BufTy).Contents (Elt F) → (⟨S900000, .f32⟩ : BufTy).Contents (Elt F)),
    nullary main_c_17 (constantI S_ 32 0#32),
    unary main_c_17 main_v75 (broadcastInDim S900000 ![] bcast_S_S900000 : (⟨S_, .i32⟩ : BufTy).Contents (Elt F) → (⟨S900000, .i32⟩ : BufTy).Contents (Elt F)),
    binary main_v50 main_v75 main_v76 (cmpi .slt : (⟨S900000, .i32⟩ : BufTy).Contents (Elt F) → (⟨S900000, .i32⟩ : BufTy).Contents (Elt F) → (⟨S900000, .i1⟩ : BufTy).Contents (Elt F)),
    nullary main_c_18 (constantI S_ 32 100000#32),
    unary main_c_18 main_v77 (broadcastInDim S900000 ![] bcast_S_S900000 : (⟨S_, .i32⟩ : BufTy).Contents (Elt F) → (⟨S900000, .i32⟩ : BufTy).Contents (Elt F)),
    binary main_v50 main_v77 main_v78 (addi : (⟨S900000, .i32⟩ : BufTy).Contents (Elt F) → (⟨S900000, .i32⟩ : BufTy).Contents (Elt F) → (⟨S900000, .i32⟩ : BufTy).Contents (Elt F)),
    ternary main_v76 main_v78 main_v50 main_v79 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v79 main_v80 (broadcastInDim S900000x1 ![0] bcast_S900000_S900000x1_0 : (⟨S900000, .i32⟩ : BufTy).Contents (Elt F) → (⟨S900000x1, .i32⟩ : BufTy).Contents (Elt F)),
    binary main_v48 main_v80 main_v81 ((fun x i => Host.gather gather_S100000x40_S900000x1_S900000x40_1_0_n_n_0_1_140 x i) : (⟨S100000x40, .f32⟩ : BufTy).Contents (Elt F) → (⟨S900000x1, .i32⟩ : BufTy).Contents (Elt F) → (⟨S900000x40, .f32⟩ : BufTy).Contents (Elt F)),
    unary main_v74 main_v82 (broadcastInDim S900000x1 ![0] bcast_S900000_S900000x1_0 : (⟨S900000, .f32⟩ : BufTy).Contents (Elt F) → (⟨S900000x1, .f32⟩ : BufTy).Contents (Elt F)),
    unary main_v82 main_v83 (broadcastInDim S900000x40 ![0, 1] bcast_S900000x1_S900000x40_0_1 : (⟨S900000x1, .f32⟩ : BufTy).Contents (Elt F) → (⟨S900000x40, .f32⟩ : BufTy).Contents (Elt F)),
    binary main_v81 main_v83 main_v84 (mulf : (⟨S900000x40, .f32⟩ : BufTy).Contents (Elt F) → (⟨S900000x40, .f32⟩ : BufTy).Contents (Elt F) → (⟨S900000x40, .f32⟩ : BufTy).Contents (Elt F)),
    nullary main_cst_19 (constant S_ .f32 0x00000000#32),
    unary main_cst_19 main_v85 (broadcastInDim S100000x40 ![] bcast_S_S100000x40 : (⟨S_, .f32⟩ : BufTy).Contents (Elt F) → (⟨S100000x40, .f32⟩ : BufTy).Contents (Elt F)),
    unary main_v51 main_v86 (broadcastInDim S900000x1 ![0] bcast_S900000_S900000x1_0 : (⟨S900000, .i32⟩ : BufTy).Contents (Elt F) → (⟨S900000x1, .i32⟩ : BufTy).Contents (Elt F)),
    ternary main_v85 main_v86 main_v84 main_v87 ((fun x i u => Host.scatterAdd scatter_S100000x40_S900000x1_S900000x40_1_0_0_1 x i u) : (⟨S100000x40, .f32⟩ : BufTy).Contents (Elt F) → (⟨S900000x1, .i32⟩ : BufTy).Contents (Elt F) → (⟨S900000x40, .f32⟩ : BufTy).Contents (Elt F) → (⟨S100000x40, .f32⟩ : BufTy).Contents (Elt F)),
    unary main_arg5 main_v88 (broadcastInDim S1x40 ![1] bcast_S40_S1x40_1 : (⟨S40, .f32⟩ : BufTy).Contents (Elt F) → (⟨S1x40, .f32⟩ : BufTy).Contents (Elt F)),
    unary main_v88 main_v89 (broadcastInDim S100000x40 ![0, 1] bcast_S1x40_S100000x40_0_1 : (⟨S1x40, .f32⟩ : BufTy).Contents (Elt F) → (⟨S100000x40, .f32⟩ : BufTy).Contents (Elt F)),
    binary main_v87 main_v89 main_v90 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call3_cst) (constant S_ .f32 0xFF800000#32),
    TRef.binary (TRef.of (T := ⟨S100000x40, .f32⟩) main_v90) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v90) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v91) subf ]

/-- The line is its five stretches one after the other. -/
theorem ops_split : (ops : List (HloOp τ sig (Elt F))) = opsA ++ (opsB ++ (opsC ++ (opsD ++ opsE))) := rfl

set_option maxRecDepth 65536 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 65536 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The fold over two stretches one after the other. -/
theorem after_append (a b : List (HloOp τ sig (Elt F))) (V : Valuation τ sig (Elt F)) :
    after (a ++ b) V = after b (after a V) := by
  induction a generalizing V with
  | nil => rfl
  | cons op a ih => exact ih (op.result V)

end Cert.ReferenceIdeal.RefOps

end
-- ==== Proof.RefRun.lean ====
/-
  The reference program's run, read stage by stage. Every weakly fair execution terminates with each buffer at the fold
  of the 134 operations over the launch memory; the fold over the whole line is the fold over its five stretches one
  after the other, so the result is read one stretch at a time, each as the shared function (the host chain's) of what
  the stretch before left: the edge weights, the first aggregation and bias-and-relu, the edge weights again, the second
  aggregation and bias, the log-softmax.
-/
import proofs.«165430_j65747359367630_1_alg».proof.Proof.RefOps

noncomputable section

namespace Cert.ReferenceIdeal.RefRun

open Cert.ReferenceIdeal Cert.ReferenceIdeal.Gen Cert.ReferenceIdeal.Chain Cert.ReferenceIdeal.RefOps
open Idealize.ShloMosaic Idealize.ShloMosaic.TcCoe Idealize.SL.Sem Idealize.ShloMosaic.StableHlo

variable {F : FTy → Type} [FloatOps F]

/-! ## The buffers after each stretch -/

variable (m : (ℓ : Loc nD τ sig) → Buf (Elt F) ℓ)

/-- The buffers after stretch A, from the launch memory. -/
def VA (c : Dev nD) : Valuation τ sig (Elt F) := after opsA (launchContents m c)
/-- The buffers after stretch B. -/
def VB (c : Dev nD) : Valuation τ sig (Elt F) := after opsB (VA m c)
/-- The buffers after stretch C. -/
def VC (c : Dev nD) : Valuation τ sig (Elt F) := after opsC (VB m c)
/-- The buffers after stretch D. -/
def VD (c : Dev nD) : Valuation τ sig (Elt F) := after opsD (VC m c)
/-- The buffers after stretch E: the end of the line. -/
def VE (c : Dev nD) : Valuation τ sig (Elt F) := after opsE (VD m c)

theorem after_ops (c : Dev nD) : after ops (launchContents m c) = VE m c := by
  rw [ops_split, after_append, after_append, after_append, after_append]; rfl

/-! ### Stretch A -/

theorem VA_v1 (c : Dev nD) : VA m c (Proc.devRef .tc main_v1) = edgeRow0 (m ((c.tc : Thread nD τ).loc main_arg1)) := by
  unfold VA; after_results_simp <;> rfl

theorem VA_v3 (c : Dev nD) : VA m c (Proc.devRef .tc main_v3) = edgeRow1 (m ((c.tc : Thread nD τ).loc main_arg1)) := by
  unfold VA; after_results_simp <;> rfl

theorem VA_v4 (c : Dev nD) : VA m c (Proc.devRef .tc main_v4) = Host.dotGeneral dot_S100000x128_S128x256_S100000x256_1_0_0_1_n_n none (m ((c.tc : Thread nD τ).loc main_arg0)) (m ((c.tc : Thread nD τ).loc main_arg2)) := by
  unfold VA; after_results_simp <;> rfl

theorem VA_v6 (c : Dev nD) : VA m c (Proc.devRef .tc main_v6) = withLoops (edgeRow0 (m ((c.tc : Thread nD τ).loc main_arg1))) := by
  unfold VA; after_results_simp <;> rfl

theorem VA_v7 (c : Dev nD) : VA m c (Proc.devRef .tc main_v7) = withLoops (edgeRow1 (m ((c.tc : Thread nD τ).loc main_arg1))) := by
  unfold VA; after_results_simp <;> rfl

theorem VA_v30 (c : Dev nD) : VA m c (Proc.devRef .tc main_v30) = edgeNorm (withLoops (edgeRow0 (m ((c.tc : Thread nD τ).loc main_arg1)))) (withLoops (edgeRow1 (m ((c.tc : Thread nD τ).loc main_arg1)))) := by
  unfold VA; after_results_simp <;> rfl

theorem VA_arg3 (c : Dev nD) : VA m c (Proc.devRef .tc main_arg3) = (m ((c.tc : Thread nD τ).loc main_arg3)) := by
  unfold VA; after_results_simp <;> rfl

theorem VA_arg4 (c : Dev nD) : VA m c (Proc.devRef .tc main_arg4) = (m ((c.tc : Thread nD τ).loc main_arg4)) := by
  unfold VA; after_results_simp <;> rfl

theorem VA_arg5 (c : Dev nD) : VA m c (Proc.devRef .tc main_arg5) = (m ((c.tc : Thread nD τ).loc main_arg5)) := by
  unfold VA; after_results_simp <;> rfl

/-! ### Stretch B -/

theorem VB_v48 (c : Dev nD) : VB m c (Proc.devRef .tc main_v48) = Host.dotGeneral dot_S100000x256_S256x40_S100000x40_1_0_0_1_n_n none (hostBiasRelu (aggregate256 (VA m c (Proc.devRef .tc main_v4)) (VA m c (Proc.devRef .tc main_v6)) (VA m c (Proc.devRef .tc main_v7)) (VA m c (Proc.devRef .tc main_v30))) (VA m c (Proc.devRef .tc main_arg3))) (VA m c (Proc.devRef .tc main_arg4)) := by
  unfold VB; after_results_simp <;> rfl

theorem VB_v1 (c : Dev nD) : VB m c (Proc.devRef .tc main_v1) = VA m c (Proc.devRef .tc main_v1) := by
  unfold VB; after_results_simp <;> rfl

theorem VB_v3 (c : Dev nD) : VB m c (Proc.devRef .tc main_v3) = VA m c (Proc.devRef .tc main_v3) := by
  unfold VB; after_results_simp <;> rfl

theorem VB_arg5 (c : Dev nD) : VB m c (Proc.devRef .tc main_arg5) = VA m c (Proc.devRef .tc main_arg5) := by
  unfold VB; after_results_simp <;> rfl

/-! ### Stretch C -/

theorem VC_v50 (c : Dev nD) : VC m c (Proc.devRef .tc main_v50) = withLoops (VB m c (Proc.devRef .tc main_v1)) := by
  unfold VC; after_results_simp <;> rfl

theorem VC_v51 (c : Dev nD) : VC m c (Proc.devRef .tc main_v51) = withLoops (VB m c (Proc.devRef .tc main_v3)) := by
  unfold VC; after_results_simp <;> rfl

theorem VC_v74 (c : Dev nD) : VC m c (Proc.devRef .tc main_v74) = edgeNorm (withLoops (VB m c (Proc.devRef .tc main_v1))) (withLoops (VB m c (Proc.devRef .tc main_v3))) := by
  unfold VC; after_results_simp <;> rfl

theorem VC_v48 (c : Dev nD) : VC m c (Proc.devRef .tc main_v48) = VB m c (Proc.devRef .tc main_v48) := by
  unfold VC; after_results_simp <;> rfl

theorem VC_arg5 (c : Dev nD) : VC m c (Proc.devRef .tc main_arg5) = VB m c (Proc.devRef .tc main_arg5) := by
  unfold VC; after_results_simp <;> rfl

/-! ### Stretches D and E -/

theorem VD_v90 (c : Dev nD) : VD m c (Proc.devRef .tc main_v90) = hostBias40 (aggregate40 (VC m c (Proc.devRef .tc main_v48)) (VC m c (Proc.devRef .tc main_v50)) (VC m c (Proc.devRef .tc main_v51)) (VC m c (Proc.devRef .tc main_v74))) (VC m c (Proc.devRef .tc main_arg5)) := by
  unfold VD; after_results_simp <;> rfl

/-- Contents carried to a buffer's own type and back are unchanged. -/
theorem ofBuf_toBuf {T : BufTy} (x : TRef sig T) (v : T.Contents (Elt F)) : x.ofBuf (x.toBuf v) = v := by
  obtain ⟨r, h, _, _⟩ := x
  subst h
  rfl

theorem VE_v91 (c : Dev nD) : VE m c (Proc.devRef .tc main_v91) = hostLogSoftmax (VD m c (Proc.devRef .tc main_v90)) := by
  unfold VE
  after_results_simp
  simp only [ofBuf_toBuf]
  rfl

/-! ## The result -/

/-- The reference's result as one function of its six arguments: two rounds of "dense product, aggregate over the edges,
    add the bias", a relu between them and a log-softmax after. -/
def result (x0 : (⟨S100000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F))
    (x4 : (⟨S256x40, .f32⟩ : BufTy).Contents (Elt F)) (x5 : (⟨S40, .f32⟩ : BufTy).Contents (Elt F)) : (⟨S100000x40, .f32⟩ : BufTy).Contents (Elt F) :=
  hostLogSoftmax (hostBias40 (aggregate40 (Host.dotGeneral dot_S100000x256_S256x40_S100000x40_1_0_0_1_n_n none (hostBiasRelu (aggregate256 (Host.dotGeneral dot_S100000x128_S128x256_S100000x256_1_0_0_1_n_n none x0 x2)
      (withLoops (edgeRow0 x1)) (withLoops (edgeRow1 x1)) (edgeNorm (withLoops (edgeRow0 x1)) (withLoops (edgeRow1 x1)))) x3) x4)
    (withLoops (edgeRow0 x1)) (withLoops (edgeRow1 x1)) (edgeNorm (withLoops (edgeRow0 x1)) (withLoops (edgeRow1 x1)))) x5)

theorem VE_result (c : Dev nD) : VE m c (Proc.devRef .tc main_v91) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [VE_v91, VD_v90, VC_v48, VC_v50, VC_v51, VC_v74, VC_arg5, VB_v48, VB_v1, VB_v3, VB_arg5, VA_v1, VA_v3, VA_v4, VA_v6, VA_v7,
    VA_v30, VA_arg3, VA_arg4, VA_arg5]
  rfl

set_option maxRecDepth 65536 in
set_option maxHeartbeats 53600000 in
/-- On every device, from any memory with zero counters: every weakly fair execution of the reference terminates with
    its result at `result` of the arguments and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v91) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans ((congrFun (after_ops m c) _).trans (VE_result m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefRun

end
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«165430_j65747359367630_1_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.RefValue.lean ====
/-
  The reference's result on the extended reals, as the network's layers. Its two dense products are the plain matrix
  products; its bias-and-relu is `biasRelu` of the aggregated array and of the bias laid out as a row; its last bias
  followed by its log-softmax along rows is `biasLogSoftmax`: the row maximum is the fold of max from −∞ (the maximum
  with a broadcast −∞ changes nothing), the row sum the plain sum over the row from zero. The aggregations over the
  edges stay closed.
-/
import proofs.«165430_j65747359367630_1_alg».proof.Proof.RefRun
import proofs.«165430_j65747359367630_1_alg».proof.Proof.Spec
import proofs.«165430_j65747359367630_1_alg».proof.Proof.LibMatProd
import proofs.«165430_j65747359367630_1_alg».proof.Proof.LibRowReductions
import proofs.«165430_j65747359367630_1_alg».proof.Proof.LibRowVector
import proofs.«165430_j65747359367630_1_alg».proof.Proof.LibHostRows
import proofs.«165430_j65747359367630_1_alg».proof.Proof.Network

open scoped BigOperators

noncomputable section

namespace Cert.ReferenceIdeal.RefValue

open Cert.ReferenceIdeal Cert.ReferenceIdeal.Gen Cert.ReferenceIdeal.Chain
open Idealize.ShloMosaic Idealize.ShloMosaic.ValueIdx
open Cert.GraphConv Cert.Lib.MatProd Cert.Lib.RowReductions Cert.Lib.RowVector Cert.Lib.HostRows

/-- The reference's exponential and logarithm of an array, read at an index. -/
theorem hostExp_apply {s : Shape} {φ : FTy} (v : FVec Ideal s φ) (i : s.Idx) : Host.exp v i = Ideal.exp (v i) := rfl
theorem hostLog_apply {s : Shape} {φ : FTy} (v : FVec Ideal s φ) (i : s.Idx) : Host.log v i = Ideal.log (v i) := rfl

/-- The reference's first dense product is the matrix product. -/
theorem dense1_eq (a : S100000x128.Idx → EReal) (b : S128x256.Idx → EReal) :
    Host.dotGeneral (F := Ideal) (φ₁ := .f32) (φ₂ := .f32) dot_S100000x128_S128x256_S100000x256_1_0_0_1_n_n none a b = matProd a b :=
  dotGeneral_eq_matProd dot_S100000x128_S128x256_S100000x256_1_0_0_1_n_n rfl rfl rfl rfl rfl rfl none _ a b

/-- The reference's second dense product is the matrix product. -/
theorem dense2_eq (a : S100000x256.Idx → EReal) (b : S256x40.Idx → EReal) :
    Host.dotGeneral (F := Ideal) (φ₁ := .f32) (φ₂ := .f32) dot_S100000x256_S256x40_S100000x40_1_0_0_1_n_n none a b = matProd a b :=
  dotGeneral_eq_matProd dot_S100000x256_S256x40_S100000x40_1_0_0_1_n_n rfl rfl rfl rfl rfl rfl none _ a b

/-- The reference's bias-and-relu is `biasRelu` with the bias as a row. -/
theorem hostBiasRelu_eq (a : S100000x256.Idx → EReal) (b : S256.Idx → EReal) :
    hostBiasRelu (F := Ideal) a b = biasRelu a (asRow b) := by
  funext i
  obtain ⟨p, q, rfl⟩ : ∃ (p : Fin 100000) (q : Fin 256), i = ix2 p q := ⟨i 0, i 1, eq_ix2 i⟩
  rw [biasRelu_apply]
  unfold hostBiasRelu
  rw [maximumf_apply, addf_apply, bcastInDim_rows_apply, bcastInDim_eq_asRow, Cert.Lib.RowVector.bcastInDim_scalar_apply,
    constant_apply]

/-- The reference's last bias followed by its log-softmax along rows is `biasLogSoftmax` with the bias as a row. -/
theorem hostLogSoftmax_eq (a : S100000x40.Idx → EReal) (b : S40.Idx → EReal) :
    hostLogSoftmax (F := Ideal) (hostBias40 (F := Ideal) a b) = biasLogSoftmax a (asRow b) := by
  funext i
  obtain ⟨p, q, rfl⟩ : ∃ (p : Fin 100000) (q : Fin 40), i = ix2 p q := ⟨i 0, i 1, eq_ix2 i⟩
  rw [biasLogSoftmax_apply]
  have hz : ∀ (r : Fin 100000) (k : Fin 40), hostBias40 (F := Ideal) a b (ix2 r k) = biasedRow a (asRow b) r k :=
    fun r k => by
      unfold hostBias40
      rw [addf_apply, bcastInDim_rows_apply, bcastInDim_eq_asRow]
      rfl
  generalize hostBias40 (F := Ideal) a b = z at hz ⊢
  unfold hostLogSoftmax
  have hmx : ∀ r : Fin 100000,
      maximumf (F := Ideal) (φ := .f32) (broadcastInDim S100000 ![] bcast_S_S100000 (constant S_ .f32 0xFF800000#32))
        (Host.reduce FloatOps.maximumf z (constant S_ .f32 0xFF800000#32) reducesTo_S100000x40_S100000_d1 h_S_) (ix1 r)
        = rowMax a (asRow b) r := fun r => by
    rw [maximumf_apply, Cert.Lib.RowVector.bcastInDim_scalar_apply, constant_apply, ofBits_neg_inf_f32]
    refine (fold_max_bot _).trans ?_
    refine (host_rowmax_apply z _ reducesTo_S100000x40_S100000_d1 h_S_ r).trans ?_
    unfold rowMax
    rw [constant_apply, ofBits_neg_inf_f32]
    exact congrArg (fun f => Finset.fold max (⊥ : EReal) f (Finset.univ : Finset (Fin 40))) (funext fun k => hz r k)
  generalize maximumf (F := Ideal) (φ := .f32) (broadcastInDim S100000 ![] bcast_S_S100000 (constant S_ .f32 0xFF800000#32))
    (Host.reduce FloatOps.maximumf z (constant S_ .f32 0xFF800000#32) reducesTo_S100000x40_S100000_d1 h_S_) = mx at hmx ⊢
  have hsh : ∀ (r : Fin 100000) (k : Fin 40),
      subf z (broadcastInDim S100000x40 ![0, 1] bcast_S100000x1_S100000x40_0_1
        (broadcastInDim S100000x1 ![0] bcast_S100000_S100000x1_0 mx)) (ix2 r k)
        = biasedRow a (asRow b) r k - rowMax a (asRow b) r := fun r k => by
    rw [subf_apply, bcastInDim_cols_apply, bcastInDim_col_apply, hz, hmx]
  generalize subf z (broadcastInDim S100000x40 ![0, 1] bcast_S100000x1_S100000x40_0_1
    (broadcastInDim S100000x1 ![0] bcast_S100000_S100000x1_0 mx)) = sh at hsh ⊢
  rw [subf_apply, bcastInDim_cols_apply, hsh]
  refine congrArg (fun s => biasedRow a (asRow b) p q - rowMax a (asRow b) p - s) ((hostLog_apply _ _).trans ?_)
  refine congrArg Ideal.log ((bcastInDim_col_apply _ bcast_S100000_S100000x1_0 p).trans ?_)
  refine (host_rowsum_apply (Host.exp sh) _ reducesTo_S100000x40_S100000_d1 h_S_ p).trans ?_
  rw [constant_apply, Ideal.ofBits_zero_f32, zero_add]
  exact Finset.sum_congr rfl fun k _ => by rw [hostExp_apply, hsh]

/-- The reference's result is the network of its arguments. -/
theorem result_eq (x0 : S100000x128.Idx → EReal) (x1 : (⟨S2x800000, .i32⟩ : BufTy).Contents (Elt Ideal))
    (x2 : S128x256.Idx → EReal) (x3 : S256.Idx → EReal) (x4 : S256x40.Idx → EReal) (x5 : S40.Idx → EReal) :
    Cert.ReferenceIdeal.RefRun.result (F := Ideal) x0 x1 x2 x3 x4 x5 = network x0 x1 x2 x3 x4 x5 := by
  unfold Cert.ReferenceIdeal.RefRun.result network
  rw [hostLogSoftmax_eq, dense2_eq, hostBiasRelu_eq, dense1_eq]

end Cert.ReferenceIdeal.RefValue

end
-- ==== Proof.lean ====
/-
  A two-layer graph-convolution network as a Pallas program against its jnp reference, on the extended reals.

  Both programs compute, from node features x, an edge list, weights W1, W2 and biases b1, b2:
  log_softmax (A·(relu (A·(x W1) + b1)) W2 + b2), where A aggregates node features over the edges with the self-loops
  appended, each message scaled by the inverse square roots of the in-degrees at its two ends. The gathers and
  scatter-adds that make A are host operations in both programs, the same ones applied to the same index arrays, and
  are never opened. The kernel program runs its four dense steps as pipelined regions over twenty blocks of 5000 rows
  each — a product with W1, the bias and relu, a product with W2, the bias and the row-wise log-softmax —; an entry
  of each step's result depends on one row of its row operand only, so each region leaves one function of its whole
  operand arrays, and the twenty blocks tile the result. On the extended reals a change of float format is the
  identity, a product accumulated into zeros and the reference's dot_general are the same sum over the contracted
  coordinate, a row maximum is the fold of max from −∞ on both sides and a row sum the plain sum, so the two results
  are one function of the arguments (`Cert.GraphConv.network`). No law of the extended reals beyond 0 + s = s and
  max(−∞, s) = s is used, and the finiteness of the inputs is not needed.

  The three frames: the kernel programs' are the generated frame certificates; the reference's is its run with the
  result dropped. The idealization rewrote no operation, so `preserves` has nothing to state.
-/
import proofs.«165430_j65747359367630_1_alg».proof.Defs
import proofs.«165430_j65747359367630_1_alg».proof.Proof.Gen.Kernel
import proofs.«165430_j65747359367630_1_alg».proof.Proof.Gen.Kernel.Skeleton
import proofs.«165430_j65747359367630_1_alg».proof.Proof.Gen.Kernel.Launch
import proofs.«165430_j65747359367630_1_alg».proof.Proof.Gen.Kernel.Points
import proofs.«165430_j65747359367630_1_alg».proof.Proof.Gen.Kernel.Frame
import proofs.«165430_j65747359367630_1_alg».proof.Proof.Gen.KernelIdeal
import proofs.«165430_j65747359367630_1_alg».proof.Proof.Gen.KernelIdeal.Skeleton
import proofs.«165430_j65747359367630_1_alg».proof.Proof.Gen.KernelIdeal.Launch
import proofs.«165430_j65747359367630_1_alg».proof.Proof.Gen.KernelIdeal.Points
import proofs.«165430_j65747359367630_1_alg».proof.Proof.Gen.KernelIdeal.Frame
import proofs.«165430_j65747359367630_1_alg».proof.Proof.Gen.ReferenceIdeal
import proofs.«165430_j65747359367630_1_alg».proof.Proof.Gen.Pre_finite_inputs
import proofs.«165430_j65747359367630_1_alg».proof.Proof.ValueRun
import proofs.«165430_j65747359367630_1_alg».proof.Proof.KernelValue
import proofs.«165430_j65747359367630_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories agreeing on the arguments both programs end with their result at the network of the arguments. -/
theorem algebraic : Cert.algebraic_KernelIdeal_ReferenceIdeal := by
  intro m ρ m' ρ' _ hagree
  refine ⟨fun c => Cert.GraphConv.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.result m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.RefRun.run (F := Ideal) m' ρ')
    obtain ⟨h0, h1, h2, h3, h4, h5⟩ := hagree c
    rw [h0, h1, h2, h3, h4, h5]
    exact Cert.ReferenceIdeal.RefValue.result_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
